-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S20000x3 : Shape := ⟨2, ![20000, 3]⟩
abbrev S256x512 : Shape := ⟨2, ![256, 512]⟩
abbrev S256 : Shape := ⟨1, ![256]⟩
abbrev S256x256 : Shape := ⟨2, ![256, 256]⟩
abbrev S768x256 : Shape := ⟨2, ![768, 256]⟩
abbrev S768 : Shape := ⟨1, ![768]⟩
abbrev S2x320000 : Shape := ⟨2, ![2, 320000]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S768x256 .f32) (main_arg8 : FVec F S768 .f32) (main_arg9 : FVec F S768 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  main_v48

def fn_part1 {F : FTy → Type} [FloatOps F] (main_arg4 : FVec F S256 .f32) (main_arg5 : FVec F S256x256 .f32) (main_arg6 : FVec F S768x256 .f32) (main_arg7 : FVec F S768x256 .f32) (main_arg8 : FVec F S768 .f32) (main_arg9 : FVec F S768 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S768x256 .f32 := Host.absf main_arg6
  let main_cst_10 : FVec F S_ .f32 := constant S_ .f32 0x7F800000#32
  let main_v30 : FVec F S768x256 .f32 := broadcastInDim S768x256 ![] bcast_S_S768x256 main_cst_10
  let main_v31 : IVec S768x256 1 := cmpf .olt main_v29 main_v30
  let main_c_11 : IVec S_ 1 := constantI S_ 1 1#1
  let main_v32 : IVec S_ 1 := (fun x v => Host.reduce IntOp.andi x v reducesTo_S768x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S20000x256 .f32) (main_arg1 : FVec F S20000x256 .f32) (main_arg2 : FVec F S20000x3 .f32) (main_arg3 : FVec F S256x512 .f32) (main_arg4 : FVec F S256 .f32) (main_arg5 : FVec F S256x256 .f32) (main_arg6 : FVec F S768x256 .f32) (main_arg7 : FVec F S768x256 .f32) (main_arg8 : FVec F S768 .f32) (main_arg9 : FVec F S768 .f32) (main_arg10 : IVec S2x320000 32) (main_arg11 : IVec S2x320000 32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S20000x256 .f32 := Host.absf main_arg1
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S20000x3 .f32 := Host.absf main_arg2
  let main_cst_2 : FVec F S_ .f32 := constant S_ .f32 0x7F800000#32
  let main_v10 : FVec F S20000x3 .f32 := broadcastInDim S20000x3 ![] bcast_S_S20000x3 main_cst_2
  let main_v11 : IVec S20000x3 1 := cmpf .olt main_v9 main_v10
  let main_c_3 : IVec S_ 1 := constantI S_ 1 1#1
  let main_v12 : IVec S_ 1 := (fun x v => Host.reduce IntOp.andi x v reducesTo_S20000x3_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_v13 main_v16
-- ==== Kernel.lean ====
abbrev S20000x256 : Shape := ⟨2, ![20000, 256]⟩
abbrev S20000x3 : Shape := ⟨2, ![20000, 3]⟩
abbrev S256x512 : Shape := ⟨2, ![256, 512]⟩
abbrev S256 : Shape := ⟨1, ![256]⟩
abbrev S256x256 : Shape := ⟨2, ![256, 256]⟩
abbrev S768x256 : Shape := ⟨2, ![768, 256]⟩
abbrev S768 : Shape := ⟨1, ![768]⟩
abbrev S2x320000 : Shape := ⟨2, ![2, 320000]⟩
abbrev S1x256 : Shape := ⟨2, ![1, 256]⟩
abbrev S256x768 : Shape := ⟨2, ![256, 768]⟩
abbrev S1x768 : Shape := ⟨2, ![1, 768]⟩
abbrev S2000x256 : Shape := ⟨2, ![2000, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1000x256 : Shape := ⟨2, ![1000, 256]⟩
abbrev S1000x768 : Shape := ⟨2, ![1000, 768]⟩

abbrev nBuf : Space → Nat
  | .hbm => 43
  | .vmem => 21
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S20000x3, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S2x320000, .i32⟩
  | .hbm, ⟨11, _⟩ => ⟨S2x320000, .i32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S1x256, .f32⟩
  | .hbm, ⟨17, _⟩ => ⟨S256x768, .f32⟩
  | .hbm, ⟨18, _⟩ => ⟨S256x768, .f32⟩
  | .hbm, ⟨19, _⟩ => ⟨S256x768, .f32⟩
  | .hbm, ⟨20, _⟩ => ⟨S1x768, .f32⟩
  | .hbm, ⟨21, _⟩ => ⟨S1x768, .f32⟩
  | .hbm, ⟨22, _⟩ => ⟨S20000x256, .f32⟩
  | .hbm, ⟨23, _⟩ => ⟨S20000x256, .bf16⟩
  | .hbm, ⟨24, _⟩ => ⟨S1x320000, .i32⟩
  | .hbm, ⟨25, _⟩ => ⟨S320000, .i32⟩
  | .hbm, ⟨26, _⟩ => ⟨S1x320000, .i32⟩
  | .hbm, ⟨27, _⟩ => ⟨S320000, .i32⟩
  | .hbm, ⟨28, _⟩ => ⟨S_, .i32⟩
  | .hbm, ⟨29, _⟩ => ⟨S320000, .i32⟩
  | .hbm, ⟨30, _⟩ => ⟨S320000, .i1⟩
  | .hbm, ⟨31, _⟩ => ⟨S_, .i32⟩
  | .hbm, ⟨32, _⟩ => ⟨S320000, .i32⟩
  | .hbm, ⟨33, _⟩ => ⟨S320000, .i32⟩
  | .hbm, ⟨34, _⟩ => ⟨S320000, .i32⟩
  | .hbm, ⟨35, _⟩ => ⟨S320000x1, .i32⟩
  | .hbm, ⟨36, _⟩ => ⟨S320000x256, .bf16⟩
  | .hbm, ⟨37, _⟩ => ⟨S320000x256, .f32⟩
  | .hbm, ⟨38, _⟩ => ⟨S_, .f32⟩
  | .hbm, ⟨39, _⟩ => ⟨S20000x256, .f32⟩
  | .hbm, ⟨40, _⟩ => ⟨S320000x1, .i32⟩
  | .hbm, ⟨41, _⟩ => ⟨S20000x256, .f32⟩
  | .hbm, ⟨42, _⟩ => ⟨S20000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S1000x256, .f32⟩
  | .local _ .vmem, ⟨12, _⟩ => ⟨S1000x256, .f32⟩
  | .local _ .vmem, ⟨13, _⟩ => ⟨S1000x256, .f32⟩
  | .local _ .vmem, ⟨14, _⟩ => ⟨S1000x256, .f32⟩
  | .local _ .vmem, ⟨15, _⟩ => ⟨S256x768, .f32⟩
  | .local _ .vmem, ⟨16, _⟩ => ⟨S256x768, .f32⟩
  | .local _ .vmem, ⟨17, _⟩ => ⟨S1x768, .f32⟩
  | .local _ .vmem, ⟨18, _⟩ => ⟨S1x768, .f32⟩
  | .local _ .vmem, ⟨19, _⟩ => ⟨S1000x256, .f32⟩
  | .local _ .vmem, ⟨20, _⟩ => ⟨S1000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S256x512_S256x256_0_0 : S256x512.Slices ![0, 0] S256x256
  transposes_S256x256_S256x256_1_0 : S256x256.Transposes [1, 0] S256x256
  slices_S256x512_S256x256_0_256 : S256x512.Slices ![0, 256] S256x256
  shapeCasts_S256_S1x256 : S256.ShapeCasts S1x256
  transposes_S768x256_S256x768_1_0 : S768x256.Transposes [1, 0] S256x768
  shapeCasts_S768_S1x768 : S768.ShapeCasts S1x768
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1000x768 : S1x768.Broadcasts S1000x768
  slices_S1000x768_o0_0_S1000x256 : S1000x768.Slices ![0, 0] S1000x256
  slices_S1000x768_o0_256_S1000x256 : S1000x768.Slices ![0, 256] S1000x256
  slices_S1000x768_o0_512_S1000x256 : S1000x768.Slices ![0, 512] S1000x256
  dot_S256x256_S256x768_S256x768_1_0_0_1_n_n_wf : DotDims.WF S256x256 S256x768 S256x768 [1] [0] [0] [1] [] []
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S1000x256_S256x768_S1000x768_1_0_0_1_n_n_wf : DotDims.WF S1000x256 S256x768 S1000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .f32 = 32 ∨ (Rect.block (s := S20000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S20000x256.size a
  hwx0_6 : ∀ i : grid0.Coords, EltTy.bits .bf16 = 32 ∨ (Rect.block (s := S20000x256) S2000x256.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S20000x256.size a
  hwx1_0 : ∀ i : grid1.Coords, EltTy.bits .f32 = 32 ∨ (Rect.block (s := S20000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S20000x256.size a
  hwx1_1 : ∀ i : grid1.Coords, EltTy.bits .f32 = 32 ∨ (Rect.block (s := S20000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x768.size a ≤ S256x768.size a
  hwx1_2 : ∀ i : grid1.Coords, EltTy.bits .f32 = 32 ∨ (Rect.block (s := S256x768) S256x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x768.size a ≤ S256x768.size a
  hwx1_3 : ∀ i : grid1.Coords, EltTy.bits .f32 = 32 ∨ (Rect.block (s := S256x768) S256x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x768.size a ≤ S1x768.size a
  hwx1_5 : ∀ i : grid1.Coords, EltTy.bits .f32 = 32 ∨ (Rect.block (s := S1x768) S1x768.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x256.size a ≤ S20000x256.size a
  hwx1_6 : ∀ i : grid1.Coords, EltTy.bits .f32 = 32 ∨ (Rect.block (s := S20000x256) S1000x256.size (cc1_transform_6 i) (hinb1_6 i)).WholeWords (EltTy.packing .f32)

variable [Facts₀]

def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10_1) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v10_0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S256x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S20000x256 : Shape := ⟨2, ![20000, 256]⟩
abbrev S20000x3 : Shape := ⟨2, ![20000, 3]⟩
abbrev S256x512 : Shape := ⟨2, ![256, 512]⟩
abbrev S256 : Shape := ⟨1, ![256]⟩
abbrev S256x256 : Shape := ⟨2, ![256, 256]⟩
abbrev S768x256 : Shape := ⟨2, ![768, 256]⟩
abbrev S768 : Shape := ⟨1, ![768]⟩
abbrev S2x320000 : Shape := ⟨2, ![2, 320000]⟩
abbrev S20000x512 : Shape := ⟨2, ![20000, 512]⟩
abbrev S512x256 : Shape := ⟨2, ![512, 256]⟩
abbrev S1x256 : Shape := ⟨2, ![1, 256]⟩
abbrev S_ : Shape := ⟨0, ![]⟩
abbrev S1x320000 : Shape := ⟨2, ![1, 320000]⟩
abbrev S320000 : Shape := ⟨1, ![320000]⟩
abbrev S320000x1 : Shape := ⟨2, ![320000, 1]⟩
abbrev S320000x256 : Shape := ⟨2, ![320000, 256]⟩
abbrev S256x768 : Shape := ⟨2, ![256, 768]⟩
abbrev S20000x768 : Shape := ⟨2, ![20000, 768]⟩
abbrev S1x768 : Shape := ⟨2, ![1, 768]⟩

abbrev nBuf : Space → Nat
  | .hbm => 82
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S20000x256, .f32⟩
  | .hbm, ⟨2, _⟩ => ⟨S20000x3, .f32⟩
  | .hbm, ⟨3, _⟩ => ⟨S256x512, .f32⟩
  | .hbm, ⟨4, _⟩ => ⟨S256, .f32⟩
  | .hbm, ⟨5, _⟩ => ⟨S256x256, .f32⟩
  | .hbm, ⟨6, _⟩ => ⟨S768x256, .f32⟩
  | .hbm, ⟨7, _⟩ => ⟨S768x256, .f32⟩
  | .hbm, ⟨8, _⟩ => ⟨S768, .f32⟩
  | .hbm, ⟨9, _⟩ => ⟨S768, .f32⟩
  | .hbm, ⟨10, _⟩ => ⟨S2x320000, .i32⟩
  | .hbm, ⟨11, _⟩ => ⟨S2x320000, .i32⟩
  | .hbm, ⟨12, _⟩ => ⟨S20000x512, .f32⟩
  | .hbm, ⟨13, _⟩ => ⟨S512x256, .f32⟩
  | .hbm, ⟨14, _⟩ => ⟨S20000x256, .f32⟩
  | .hbm, ⟨15, _⟩ => ⟨S1x256, .f32⟩
  | .hbm, ⟨16, _⟩ => ⟨S20000x256, .f32⟩
  | .hbm, ⟨17, _⟩ => ⟨S20000x256, .f32⟩
  | .hbm, ⟨18, _⟩ => ⟨S_, .f32⟩
  | .hbm, ⟨19, _⟩ => ⟨S20000x256, .f32⟩
  | .hbm, ⟨20, _⟩ => ⟨S20000x256, .f32⟩
  | .hbm, ⟨21, _⟩ => ⟨S20000x256, .f32⟩
  | .hbm, ⟨22, _⟩ => ⟨S1x320000, .i32⟩
  | .hbm, ⟨23, _⟩ => ⟨S320000, .i32⟩
  | .hbm, ⟨24, _⟩ => ⟨S1x320000, .i32⟩
  | .hbm, ⟨25, _⟩ => ⟨S320000, .i32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000x256, .f32⟩
  | .hbm, ⟨35, _⟩ => ⟨S_, .f32⟩
  | .hbm, ⟨36, _⟩ => ⟨S20000x256, .f32⟩
  | .hbm, ⟨37, _⟩ => ⟨S320000x1, .i32⟩
  | .hbm, ⟨38, _⟩ => ⟨S20000x256, .f32⟩
  | .hbm, ⟨39, _⟩ => ⟨S256x768, .f32⟩
  | .hbm, ⟨40, _⟩ => ⟨S20000x768, .f32⟩
  | .hbm, ⟨41, _⟩ => ⟨S1x768, .f32⟩
  | .hbm, ⟨42, _⟩ => ⟨S20000x768, .f32⟩
  | .hbm, ⟨43, _⟩ => ⟨S20000x768, .f32⟩
  | .hbm, ⟨44, _⟩ => ⟨S256x768, .f32⟩
  | .hbm, ⟨45, _⟩ => ⟨S20000x768, .f32⟩
  | .hbm, ⟨46, _⟩ => ⟨S1x768, .f32⟩
  | .hbm, ⟨47, _⟩ => ⟨S20000x768, .f32⟩
  | .hbm, ⟨48, _⟩ => ⟨S20000x768, .f32⟩
  | .hbm, ⟨49, _⟩ => ⟨S20000x256, .f32⟩
  | .hbm, ⟨50, _⟩ => ⟨S20000x256, .f32⟩
  | .hbm, ⟨51, _⟩ => ⟨S20000x256, .f32⟩
  | .hbm, ⟨52, _⟩ => ⟨S20000x256, .f32⟩
  | .hbm, ⟨53, _⟩ => ⟨S20000x256, .f32⟩
  | .hbm, ⟨54, _⟩ => ⟨S20000x256, .f32⟩
  | .hbm, ⟨55, _⟩ => ⟨S20000x256, .f32⟩
  | .hbm, ⟨56, _⟩ => ⟨S20000x256, .f32⟩
  | .hbm, ⟨57, _⟩ => ⟨S20000x256, .f32⟩
  | .hbm, ⟨58, _⟩ => ⟨S_, .f32⟩
  | .hbm, ⟨59, _⟩ => ⟨S20000x256, .f32⟩
  | .hbm, ⟨60, _⟩ => ⟨S20000x256, .f32⟩
  | .hbm, ⟨61, _⟩ => ⟨S_, .f32⟩
  | .hbm, ⟨62, _⟩ => ⟨S20000x256, .f32⟩
  | .hbm, ⟨63, _⟩ => ⟨S20000x256, .f32⟩
  | .hbm, ⟨64, _⟩ => ⟨S20000x256, .f32⟩
  | .hbm, ⟨65, _⟩ => ⟨S20000x256, .f32⟩
  | .hbm, ⟨66, _⟩ => ⟨S20000x256, .f32⟩
  | .hbm, ⟨67, _⟩ => ⟨S_, .f32⟩
  | .hbm, ⟨68, _⟩ => ⟨S20000x256, .f32⟩
  | .hbm, ⟨69, _⟩ => ⟨S20000x256, .f32⟩
  | .hbm, ⟨70, _⟩ => ⟨S_, .f32⟩
  | .hbm, ⟨71, _⟩ => ⟨S20000x256, .f32⟩
  | .hbm, ⟨72, _⟩ => ⟨S20000x256, .f32⟩
  | .hbm, ⟨73, _⟩ => ⟨S20000x256, .f32⟩
  | .hbm, ⟨74, _⟩ => ⟨S20000x256, .f32⟩
  | .hbm, ⟨75, _⟩ => ⟨S20000x256, .f32⟩
  | .hbm, ⟨76, _⟩ => ⟨S_, .f32⟩
  | .hbm, ⟨77, _⟩ => ⟨S20000x256, .f32⟩
  | .hbm, ⟨78, _⟩ => ⟨S20000x256, .f32⟩
  | .hbm, ⟨79, _⟩ => ⟨S20000x256, .f32⟩
  | .hbm, ⟨80, _⟩ => ⟨S20000x256, .f32⟩
  | .hbm, ⟨81, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_call0_cst : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_1 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  concatenates_S20000x256_S20000x256_S20000x512_d1 : Shape.Concatenates [S20000x256, S20000x256] S20000x512 1
  transposes_S256x512_S512x256_1_0 : S256x512.Transposes [1, 0] S512x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  transposes_S768x256_S256x768_1_0 : S768x256.Transposes [1, 0] S256x768
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  slices_S20000x768_S20000x256_0_0 : S20000x768.Slices ![0, 0] S20000x256
  slices_S20000x768_S20000x256_0_256 : S20000x768.Slices ![0, 256] S20000x256
  slices_S20000x768_S20000x256_0_512 : S20000x768.Slices ![0, 512] S20000x256
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x768_S20000x768_1_0_0_1_n_n_wf : DotDims.WF S20000x256 S256x768 S20000x768 [1] [0] [0] [1] [] []

variable [Facts₀]

def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x768_S20000x768_1_0_0_1_n_n : DotDims S20000x256 S256x768 S20000x768 where
  lhsContracting := [1]
  rhsContracting := [0]
  lhsNonContracting := [0]
  rhsNonContracting := [1]
  lhsBatch := []
  rhsBatch := []
  wf := dot_S20000x256_S256x768_S20000x768_1_0_0_1_n_n_wf

class Facts : Prop extends Facts₀ where

variable [Facts]
-- ==== Proof.KernelRun.lean ====
/-
  The kernel program's run with every buffer after the run named.

  @main is four segments: a stretch of host operations, the dense-layer region, a second stretch of host operations
  (the edge gather and the edge sum), and the gated-cell region. The buffer contents at the segments' boundaries form a
  fold from the launch memory, `Gen.W0 … Gen.W4`: a stretch applies its operations, a region leaves its arrays at what
  its blocks' write-backs make of them and every other buffer as it was. Every weakly fair execution of @main
  terminates, nothing faulting, with every unscoped buffer of every core at the last fold `Gen.W4`; the result buffer
  is read off that fold, and each argument array walks back through it to its launch contents.
-/
import proofs.«180257_j40346922778954_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    last boundary's contents `Gen.W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer and the argument arrays read off the last fold. -/
theorem run_named : θ_run defs (onTc (τ := τ) (main (F := F))) ⟨m, fun _ => 0, ρ⟩ (fun r => ∀ c : Dev nD,
      r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun s h c =>
      ⟨h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)
    (run_all m ρ)

end Cert.KernelIdeal.KRun

end
-- ==== Proof.Spec.lean ====
/-
  The mathematics of one gated graph-convolution step over the extended reals, entry by entry, in two arrangements.

  A node's hidden features are  xr = max(x·Wx + h·Wh + b, 0).  Each node then sums, over the edges that end in it, a row
  taken at the edge's source; the sum feeds the input side of a gated recurrent cell whose hidden side is xr itself:
      r = σ(gi₀ + gh₀),  z = σ(gi₁ + gh₁),  c = tanh(gi₂ + r·gh₂),  out = (1 − z)·c + z·xr,
  where gi = agg·Wi + bi and gh = xr·Wh' + bh' are 768 wide and the subscripts name their three 256-wide thirds.

  The two arrangements differ in where the convolution weight Wc sits: FOLDED into the cell's input weight
  (agg = Σ_edges xr[src],  Wi = Wc·Wihᵀ) or applied BEFORE the edge sum (agg = Σ_edges (xr·Wc)[src],  Wi = Wihᵀ); and in
  whether the dense layer is written as two products over 256 columns or one over the 512 joined columns.
  Everything is stated by coordinates over literal extents; no program is imported here.
-/
import Idealize.ShloMosaic.PureOps.Ideal
import Idealize.ShloMosaic.Lib.ValueIdx

noncomputable section

open scoped BigOperators

namespace Cert.GruSpec

open Idealize.ShloMosaic

/-- Column `j` of the first, second and third 256-wide third of a 768-wide row. -/
def g0 (j : Fin 256) : Fin 768 := ⟨j.val, by omega⟩
def g1 (j : Fin 256) : Fin 768 := ⟨256 + j.val, by omega⟩
def g2 (j : Fin 256) : Fin 768 := ⟨512 + j.val, by omega⟩
/-- Column `k` of the left and of the right half of a 512-wide row. -/
def lo (k : Fin 256) : Fin 512 := ⟨k.val, by omega⟩
def hi (k : Fin 256) : Fin 512 := ⟨256 + k.val, by omega⟩

/-- The float word of the number one, as both programs write it. -/
def one : EReal := Ideal.ofBits .f32 0x3F800000#32

/-- The gated cell at column `j`, from the two 768-wide pre-activations of a node and its hidden row. -/
def cell (gi gh : Fin 768 → EReal) (xr : Fin 256 → EReal) (j : Fin 256) : EReal :=
  (one - Ideal.logistic (gi (g1 j) + gh (g1 j)))
      * Ideal.tanh (gi (g2 j) + Ideal.logistic (gi (g0 j) + gh (g0 j)) * gh (g2 j))
    + Ideal.logistic (gi (g1 j) + gh (g1 j)) * xr j

/-- The dense layer as two products over 256 columns each, plus a bias row, clamped below at zero: entry `(n, j)`. -/
def fcE (x h : Fin 20000 → Fin 256 → EReal) (wx wh : Fin 256 → Fin 256 → EReal) (b : Fin 256 → EReal)
    (n : Fin 20000) (j : Fin 256) : EReal :=
  max (((∑ k : Fin 256, x n k * wx k j) + ∑ k : Fin 256, h n k * wh k j) + b j) 0

/-- The sum over the edges that end in node `n` (edge `e` ends in `n` when `dst e = n`) of column `k` of the row of
    `t` at the edge's source `row e`. -/
def aggE (row : Fin 320000 → Fin 20000) (dst : Fin 320000 → Int) (t : Fin 20000 → Fin 256 → EReal)
    (n : Fin 20000) (k : Fin 256) : EReal :=
  ∑ e : Fin 320000, if dst e = (n.val : Int) then t (row e) k else 0

/-- The gated update at entry `(n, j)` from the hidden features `xr`, the aggregated rows `agg`, the two `[256, 768]`
    weights and the two bias rows. -/
def gruE (xr agg : Fin 20000 → Fin 256 → EReal) (wi wh : Fin 256 → Fin 768 → EReal) (bi bh : Fin 768 → EReal)
    (n : Fin 20000) (j : Fin 256) : EReal :=
  cell (fun j' => (∑ k : Fin 256, agg n k * wi k j') + bi j') (fun j' => (∑ k : Fin 256, xr n k * wh k j') + bh j')
    (fun k => xr n k) j

section Arrangements
variable (x h : Fin 20000 → Fin 256 → EReal) (Wfc : Fin 256 → Fin 512 → EReal) (bfc : Fin 256 → EReal)
  (Wc : Fin 256 → Fin 256 → EReal) (Wih Whh : Fin 768 → Fin 256 → EReal) (bih bhh : Fin 768 → EReal)
  (row : Fin 320000 → Fin 20000) (dst : Fin 320000 → Int)

/-- Hidden features, split form: the left half of `Wfc`'s columns meets `x`, the right half `h`. -/
def xrK : Fin 20000 → Fin 256 → EReal :=
  fcE x h (fun k j => Wfc j (lo k)) (fun k j => Wfc j (hi k)) bfc

/-- FOLDED arrangement: rows of `xr` are summed over the edges, and the convolution weight is folded into the
    cell's input weight `(Wc · Wihᵀ) k j' = Σ_l Wc k l · Wih j' l`. -/
def outK (n : Fin 20000) (j : Fin 256) : EReal :=
  gruE (xrK x h Wfc bfc) (aggE row dst (xrK x h Wfc bfc)) (fun k j' => ∑ l : Fin 256, Wc k l * Wih j' l)
    (fun k j' => Whh j' k) bih bhh n j

/-- Column `k` of the 512-wide row `[x n | h n]`. -/
def xh (n : Fin 20000) (k : Fin 512) : EReal :=
  if hk : k.val < 256 then x n ⟨k.val, hk⟩ else h n ⟨k.val - 256, by omega⟩

/-- Hidden features, joined form: one product over the 512 joined columns. -/
def xrR (n : Fin 20000) (j : Fin 256) : EReal :=
  max ((∑ k : Fin 512, xh x h n k * Wfc j k) + bfc j) 0

/-- The messages `xr · Wc`. -/
def msgR (n : Fin 20000) (l : Fin 256) : EReal := ∑ k : Fin 256, xrR x h Wfc bfc n k * Wc k l

/-- UNFOLDED arrangement: the messages `xr · Wc` are summed over the edges and meet `Wihᵀ` in the cell. -/
def outR (n : Fin 20000) (j : Fin 256) : EReal :=
  gruE (xrR x h Wfc bfc) (aggE row dst (msgR x h Wfc bfc Wc)) (fun l j' => Wih j' l)
    (fun k j' => Whh j' k) bih bhh n j

end Arrangements

end Cert.GruSpec

end
-- ==== Proof.LibGatherRows.lean ====
/-
  A gather of whole rows (and of single entries of a vector) by a one-column list of row numbers, read at an entry.

  `x[rows]` for an operand `x : [R, C]` and `E` row numbers (an integer array of shape `[E, 1]`) takes, for each `e`,
  the row whose number the list's entry `e` names: the number is read as a signed word and CLAMPED into `[0, R - 1]`
  (a negative number reads row `0`, a number past the end reads the last row).  So entry `(e, c)` of the result is
  `x (clampRow (rows e), c)`.  The same list applied to a vector `x : [R]` gives `x (clampRow (rows e))` — with the SAME
  row, which is what lets a table and a vector gathered by one list be compared entry by entry.  Generic in `R`,
  `C`, `E`, the word width and the entry type.
-/
import Idealize.ShloMosaic.PureOps
import Idealize.ShloMosaic.Lib.ValueIdx

noncomputable section

namespace Cert.LibGatherRows

open Idealize.ShloMosaic Idealize.ShloMosaic.ValueIdx

/-- Entry `e` of a one-column list. -/
abbrev rowIdx {E : Nat} (e : Fin E) : (⟨2, ![E, 1]⟩ : Shape).Idx := ix2 e ⟨0, Nat.one_pos⟩

/-- The row a word names in a table of `R` rows: its signed value clamped into `[0, R - 1]`. -/
def clampRow (R : Nat) (hR : 0 < R) {w : Nat} (b : BitVec w) : Fin R := ⟨min b.toInt.toNat (R - 1), by omega⟩

/-- A word whose signed value is a row number names that row. -/
theorem clampRow_of_toInt {R : Nat} (hR : 0 < R) {w : Nat} (b : BitVec w) (n : Fin R) (h : b.toInt = (n.val : Int)) :
    clampRow R hR b = n := by
  refine Fin.ext ?_
  show min b.toInt.toNat (R - 1) = n.val
  have := n.isLt
  rw [h]; simp only [Int.toNat_natCast]; omega

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide

section Rows
variable {α : Type} {R C E w : Nat}
  (wf : GatherDims.WF ⟨2, ![R, C]⟩ ⟨2, ![E, 1]⟩ ⟨2, ![E, C]⟩ [1] [0] [] [0] [] 1 ![1, C])

/-- The dimension numbers of `x[rows]` for a table: result axis 1 runs over the operand's columns, the operand's row
    axis is collapsed and named by the one-entry index vector. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at the clamped row the list's entry `e` names, column `c`. -/
theorem gather_rows_apply (hR : 0 < R) (x : (⟨2, ![R, C]⟩ : Shape).Idx → α) (idx : IVec ⟨2, ![E, 1]⟩ w) (e : Fin E) (c : Fin C) :
    Host.gather (rowGatherDims R C E wf) x idx (ix2 e c) = x (ix2 (clampRow R hR (idx (rowIdx e))) c) := by
  unfold Host.gather
  congr 1
  funext a
  refine Fin.ext ?_
  show (rowGatherDims R C E wf).start (ix2 e c) idx a + (rowGatherDims R C E wf).batchCoord (ix2 e c) a
    + (rowGatherDims R C E wf).offCoord (ix2 e c) a = _
  rw [GatherDims.batchCoord_eq_zero _ _ _ List.not_mem_nil]
  rcases axis_two a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims R C E wf).startIndexMap from List.mem_singleton.mpr rfl)]
    have hsi : (rowGatherDims R C E wf).siIdx (ix2 e c) ⟨List.idxOf (0 : Fin 2) (rowGatherDims R C E wf).startIndexMap,
        List.idxOf_lt_length_iff.2 (List.mem_singleton.mpr rfl)⟩ = rowIdx e := by
      funext b; refine Fin.ext ?_
      rcases axis_two b with rfl | rfl
      · rfl
      · rfl
    rw [hsi]
    rfl
  · have hs : (rowGatherDims R C E wf).start (ix2 e c) idx 1 = 0 := by
      unfold GatherDims.start
      rw [dif_neg (show ¬ ((1 : Fin 2) ∈ (rowGatherDims R C E wf).startIndexMap) from one_not_mem_zero)]
    rw [hs]
    simp only [Nat.add_zero, Nat.zero_add]
    unfold GatherDims.offCoord
    rw [dif_pos ((GatherDims.mem_sKept _ _).mpr ⟨one_not_mem_zero, List.not_mem_nil⟩)]
    rfl

/-- The same for the host operation as a program prints it, whose dimension numbers are these. -/
theorem host_gather_rows_apply (hR : 0 < R) (d : GatherDims ⟨2, ![R, C]⟩ ⟨2, ![E, 1]⟩ ⟨2, ![E, C]⟩)
    (hd : d = rowGatherDims R C E wf) (x : (⟨2, ![R, C]⟩ : Shape).Idx → α) (idx : IVec ⟨2, ![E, 1]⟩ w) (e : Fin E) (c : Fin C) :
    Host.gather d x idx (ix2 e c) = x (ix2 (clampRow R hR (idx (rowIdx e))) c) := by
  subst hd
  exact gather_rows_apply wf hR x idx e c

end Rows

section Vec
variable {α : Type} {R E w : Nat}
  (wf : GatherDims.WF ⟨1, ![R]⟩ ⟨2, ![E, 1]⟩ ⟨1, ![E]⟩ [] [0] [] [0] [] 1 ![1])

/-- The dimension numbers of `x[rows]` for a vector: no offset axis, the operand's one axis collapsed and named by the
    one-entry index vector. -/
abbrev vecGatherDims (R E : Nat) (wf : GatherDims.WF ⟨1, ![R]⟩ ⟨2, ![E, 1]⟩ ⟨1, ![E]⟩ [] [0] [] [0] [] 1 ![1]) :
    GatherDims ⟨1, ![R]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at the clamped entry the list's entry `e` names. -/
theorem gather_vec_apply (hR : 0 < R) (x : (⟨1, ![R]⟩ : Shape).Idx → α) (idx : IVec ⟨2, ![E, 1]⟩ w) (e : Fin E) :
    Host.gather (vecGatherDims R E wf) x idx (ix1 e) = x (ix1 (clampRow R hR (idx (rowIdx e)))) := by
  unfold Host.gather
  congr 1
  funext a
  obtain rfl : a = 0 := Subsingleton.elim _ _
  refine Fin.ext ?_
  show (vecGatherDims R E wf).start (ix1 e) idx 0 + (vecGatherDims R E wf).batchCoord (ix1 e) 0
    + (vecGatherDims R E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims R E wf).startIndexMap from List.mem_singleton.mpr rfl)]
  have hsi : (vecGatherDims R E wf).siIdx (ix1 e) ⟨List.idxOf (0 : Fin 1) (vecGatherDims R E wf).startIndexMap,
      List.idxOf_lt_length_iff.2 (List.mem_singleton.mpr rfl)⟩ = rowIdx e := by
    funext b; refine Fin.ext ?_
    rcases axis_two b with rfl | rfl
    · rfl
    · rfl
  rw [hsi]
  rfl

/-- The same for the host operation as a program prints it, whose dimension numbers are these. -/
theorem host_gather_vec_apply (hR : 0 < R) (d : GatherDims ⟨1, ![R]⟩ ⟨2, ![E, 1]⟩ ⟨1, ![E]⟩)
    (hd : d = vecGatherDims R E wf) (x : (⟨1, ![R]⟩ : Shape).Idx → α) (idx : IVec ⟨2, ![E, 1]⟩ w) (e : Fin E) :
    Host.gather d x idx (ix1 e) = x (ix1 (clampRow R hR (idx (rowIdx e)))) := by
  subst hd
  exact gather_vec_apply wf hR x idx e

end Vec

end Cert.LibGatherRows

end
-- ==== Proof.LibScatterRows.lean ====
/-
  A row scatter with the accumulating body, read at an entry.

  `x.at[rows].add(updates)` takes an operand with `R` rows, a list of `E` row numbers (an integer array of shape
  `[E, 1]`, read as signed words, not clamped) and `E` update rows; update row `e` is added to the operand's row whose
  number the list's entry `e` names, and is dropped when that number is outside `[0, R)`.  So at entry `(n, c)` the
  result is the operand's entry plus the sum, over the updates `e` whose row number is `n`, of the update's entry
  `(e, c)`.  Over the extended reals the float scatter is that exact sum; over machine words the scatter is a left
  fold of additions in row-major order, which in a commutative monoid is the same sum.  The same holds for a one-axis
  operand `[R]` with scalar updates `[E]` (a count of the rows named).  A list of row numbers that is the join of
  two lists splits each such sum in two.  Generic in `R`, `C`, `E`.
-/
import Idealize.ShloMosaic.PureOps
import Idealize.ShloMosaic.PureOps.Ideal
import Idealize.ShloMosaic.Lib.ValueIdx

noncomputable section

open scoped BigOperators

namespace Cert.LibScatterRows

open Idealize.ShloMosaic Idealize.ShloMosaic.ValueIdx

/-- An axis of a rank-2 shape is axis 0 or axis 1. -/
theorem axis_two (a : Fin 2) : a = 0 ∨ a = 1 := by
  rcases a with ⟨v, hv⟩
  rcases v with _ | _ | v
  · exact Or.inl rfl
  · exact Or.inr rfl
  · omega

theorem one_not_mem_zero : (1 : Fin 2) ∉ ([0] : List (Fin 2)) := by decide
theorem one_mem_kept_zero : (1 : Fin 2) ∈ (List.finRange 2).filter (fun a => decide (a ∉ ([0] : List (Fin 2)))) := by decide
theorem zero_not_mem_kept_zero : (0 : Fin 2) ∉ (List.finRange 2).filter (fun a => decide (a ∉ ([0] : List (Fin 2)))) := by decide

/-- Entry `e` of an `[E, 1]` list of row numbers. -/
abbrev rowIdx {E : Nat} (e : Fin E) : (⟨2, ![E, 1]⟩ : Shape).Idx := ix2 e ⟨0, Nat.one_pos⟩

/-! ## A left fold of additions at named entries, read at one entry -/

section Fold
variable {ι κ α : Type} [AddCommMonoid α]

open Classical in
/-- Each step adds `v n` to the entry `g n` names, if any, and leaves the other entries alone (`hstep`, read at the
    entry `i'`).  At the end the entry at `i'` holds its initial value plus the sum of the `v n` over the steps that
    named `i'`. -/
theorem foldl_add_apply (step : (ι → α) → κ → ι → α) (g : κ → Option ι) (v : κ → α) (i' : ι)
    (hstep : ∀ r n, step r n i' = r i' + if g n = some i' then v n else 0) :
    ∀ (l : List κ) (x : ι → α), l.foldl step x i' = x i' + (l.map fun n => if g n = some i' then v n else 0).sum
  | [], x => by simp
  | n :: l, x => by
      rw [List.foldl_cons, foldl_add_apply step g v i' hstep l, List.map_cons, List.sum_cons, ← add_assoc, hstep]

end Fold

/-! ## The two-axis row scatter -/

section Rows
variable {R C E w : Nat}
  (wf : ScatterDims.WF ⟨2, ![R, C]⟩ ⟨2, ![E, 1]⟩ ⟨2, ![E, C]⟩ [1] [0] [0] 1)

/-- The dimension numbers of `operand.at[rows].add(updates)`: update axis 1 is the window over the operand's columns,
    the operand's row axis is the scattered one, each index vector one row number. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

theorem start_row (idx : IVec ⟨2, ![E, 1]⟩ w) (e : Fin E) (c : Fin C) :
    (rowScatterDims R C E wf).start (ix2 e c) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem start_col (idx : IVec ⟨2, ![E, 1]⟩ w) (e : Fin E) (c : Fin C) :
    (rowScatterDims R C E wf).start (ix2 e c) idx 1 = 0 := by
  unfold ScatterDims.start
  rw [dif_neg one_not_mem_zero]

theorem window_row (e : Fin E) (c : Fin C) : (rowScatterDims R C E wf).window (ix2 e c) 0 = 0 := by
  unfold ScatterDims.window
  rw [dif_neg (show 0 ∉ (rowScatterDims R C E wf).sKept from zero_not_mem_kept_zero)]

theorem window_col (e : Fin E) (c : Fin C) : (rowScatterDims R C E wf).window (ix2 e c) 1 = c.val := by
  unfold ScatterDims.window
  rw [dif_pos (show 1 ∈ (rowScatterDims R C E wf).sKept from one_mem_kept_zero)]
  rfl

/-- WHERE AN UPDATE LANDS: update `(e, c)` lands on `(n, c')` exactly when `c' = c` and the list's number `e`, read
    signed, is `n`. -/
theorem lands_iff (idx : IVec ⟨2, ![E, 1]⟩ w) (e : Fin E) (c c' : Fin C) (n : Fin R) :
    (rowScatterDims R C E wf).resultIdx? (ix2 e c) idx = some (ix2 n c')
      ↔ c' = c ∧ (idx (rowIdx e)).toInt = (n.val : Int) := by
  have e0 : (rowScatterDims R C E wf).start (ix2 e c) idx 0 + ((rowScatterDims R C E wf).window (ix2 e c) 0 : Nat)
      = (idx (rowIdx e)).toInt := by
    rw [start_row, window_row]; omega
  have e1 : (rowScatterDims R C E wf).start (ix2 e c) idx 1 + ((rowScatterDims R C E wf).window (ix2 e c) 1 : Nat)
      = (c.val : Int) := by
    rw [start_col, window_col]; omega
  have hn : n.val < R := n.isLt
  have hc : c.val < C := c.isLt
  unfold ScatterDims.resultIdx?
  split
  · rename_i h
    constructor
    · intro hEq
      have hEq' := Option.some.inj hEq
      have h0v : ((rowScatterDims R C E wf).start (ix2 e c) idx 0
          + ((rowScatterDims R C E wf).window (ix2 e c) 0 : Nat)).toNat = n.val := congrArg (fun i => (i 0).val) hEq'
      have h1v : ((rowScatterDims R C E wf).start (ix2 e c) idx 1
          + ((rowScatterDims R C E wf).window (ix2 e c) 1 : Nat)).toNat = c'.val := congrArg (fun i => (i 1).val) hEq'
      have h0 := h 0
      rw [e0] at h0v h0
      rw [e1] at h1v
      exact ⟨Fin.ext (by omega), by omega⟩
    · rintro ⟨rfl, hz⟩
      refine congrArg some (funext fun a => Fin.ext ?_)
      rcases axis_two a with rfl | rfl
      · show ((rowScatterDims R C E wf).start (ix2 e c') idx 0
          + ((rowScatterDims R C E wf).window (ix2 e c') 0 : Nat)).toNat = n.val
        rw [e0]; omega
      · show ((rowScatterDims R C E wf).start (ix2 e c') idx 1
          + ((rowScatterDims R C E wf).window (ix2 e c') 1 : Nat)).toNat = c'.val
        rw [e1]; omega
  · rename_i h
    constructor
    · intro hEq; exact nomatch hEq
    · rintro ⟨rfl, hz⟩
      refine absurd (fun a => ?_) h
      rcases axis_two a with rfl | rfl
      · rw [e0]
        exact ⟨by omega, by show (idx (rowIdx e)).toInt < ((R : Nat) : Int); omega⟩
      · rw [e1]
        exact ⟨by omega, by show (c'.val : Int) < ((C : Nat) : Int); omega⟩

/-- THE ACCUMULATING SCATTER OVER THE EXTENDED REALS READ AT `(n, c)`: the operand's entry plus the sum over the
    updates `e` whose row number is `n` of the update's entry `(e, c)`. -/
theorem scatterAdd_rows_apply (x : (⟨2, ![R, C]⟩ : Shape).Idx → EReal) (idx : IVec ⟨2, ![E, 1]⟩ w)
    (upd : (⟨2, ![E, C]⟩ : Shape).Idx → EReal) (n : Fin R) (c : Fin C) :
    Ideal.hostScatterAdd (rowScatterDims R C E wf) x idx upd (ix2 n c)
      = x (ix2 n c) + ∑ e : Fin E, if (idx (rowIdx e)).toInt = (n.val : Int) then upd (ix2 e c) else 0 := by
  unfold Ideal.hostScatterAdd
  congr 1
  rw [Finset.sum_filter, sum_idx2]
  refine Finset.sum_congr rfl fun e _ => ?_
  simp only [lands_iff wf idx e _ c n]
  by_cases h : (idx (rowIdx e)).toInt = (n.val : Int)
  · simp only [h, and_true]
    rw [Finset.sum_ite_eq Finset.univ c fun b => upd (ix2 e b)]
    simp
  · simp [h]

/-- The same for the host operation as a program prints it, whose dimension numbers are these. -/
theorem host_scatterAdd_rows_apply (d : ScatterDims ⟨2, ![R, C]⟩ ⟨2, ![E, 1]⟩ ⟨2, ![E, C]⟩) (hd : d = rowScatterDims R C E wf)
    (x : FVec Ideal ⟨2, ![R, C]⟩ .f32) (idx : IVec ⟨2, ![E, 1]⟩ w) (upd : FVec Ideal ⟨2, ![E, C]⟩ .f32) (n : Fin R) (c : Fin C) :
    Host.scatterAdd d x idx upd (ix2 n c)
      = x (ix2 n c) + ∑ e : Fin E, if (idx (rowIdx e)).toInt = (n.val : Int) then upd (ix2 e c) else 0 := by
  subst hd
  exact scatterAdd_rows_apply wf x idx upd n c

end Rows

/-! ## The one-axis scatter of scalar updates, with a machine-word sum as its body -/

section Count
variable {R E w : Nat}
  (wf : ScatterDims.WF ⟨1, ![R]⟩ ⟨2, ![E, 1]⟩ ⟨1, ![E]⟩ [] [0] [0] 1)

/-- The dimension numbers of `operand.at[rows].add(updates)` for a one-axis operand and scalar updates. -/
abbrev vecScatterDims (R E : Nat) (wf : ScatterDims.WF ⟨1, ![R]⟩ ⟨2, ![E, 1]⟩ ⟨1, ![E]⟩ [] [0] [0] 1) :
    ScatterDims ⟨1, ![R]⟩ ⟨2, ![E, 1]⟩ ⟨1, ![E]⟩ where
  updateWindowDims := []
  insertedWindowDims := [0]
  scatterDimsToOperandDims := [0]
  indexVectorDim := 1
  wf := wf

theorem zero_not_mem_kept_zero1 : (0 : Fin 1) ∉ (List.finRange 1).filter (fun a => decide (a ∉ ([0] : List (Fin 1)))) := by decide

theorem vec_start (idx : IVec ⟨2, ![E, 1]⟩ w) (e : Fin E) :
    (vecScatterDims R E wf).start (ix1 e) idx 0 = (idx (rowIdx e)).toInt := by
  unfold ScatterDims.start
  rw [dif_pos (List.mem_singleton.mpr rfl)]
  refine congrArg (fun i => (idx i).toInt) ?_
  funext b; refine Fin.ext ?_
  match b with
  | ⟨0, _⟩ => rfl
  | ⟨1, _⟩ => rfl

theorem vec_window (e : Fin E) : (vecScatterDims R E wf).window (ix1 e) 0 = 0 := by
  unfold ScatterDims.window
  rw [dif_neg (show 0 ∉ (vecScatterDims R E wf).sKept from zero_not_mem_kept_zero1)]

/-- Update `e` lands on entry `n` exactly when the list's number `e`, read signed, is `n`. -/
theorem vec_lands_iff (idx : IVec ⟨2, ![E, 1]⟩ w) (e : Fin E) (n : Fin R) :
    (vecScatterDims R E wf).resultIdx? (ix1 e) idx = some (ix1 n) ↔ (idx (rowIdx e)).toInt = (n.val : Int) := by
  have e0 : (vecScatterDims R E wf).start (ix1 e) idx 0 + ((vecScatterDims R E wf).window (ix1 e) 0 : Nat)
      = (idx (rowIdx e)).toInt := by
    rw [vec_start, vec_window]; omega
  have hn : n.val < R := n.isLt
  have ax : ∀ a : Fin 1, a = 0 := fun a => Subsingleton.elim _ _
  unfold ScatterDims.resultIdx?
  split
  · rename_i h
    constructor
    · intro hEq
      have hEq' := Option.some.inj hEq
      have h0v : ((vecScatterDims R E wf).start (ix1 e) idx 0
          + ((vecScatterDims R E wf).window (ix1 e) 0 : Nat)).toNat = n.val := congrArg (fun i => (i 0).val) hEq'
      have h0 := h 0
      rw [e0] at h0v h0
      omega
    · intro hz
      refine congrArg some (funext fun a => Fin.ext ?_)
      obtain rfl := ax a
      show ((vecScatterDims R E wf).start (ix1 e) idx 0
          + ((vecScatterDims R E wf).window (ix1 e) 0 : Nat)).toNat = n.val
      rw [e0]; omega
  · rename_i h
    constructor
    · intro hEq; exact nomatch hEq
    · intro hz
      refine absurd (fun a => ?_) h
      obtain rfl := ax a
      rw [e0]
      exact ⟨by omega, by show (idx (rowIdx e)).toInt < ((R : Nat) : Int); omega⟩

/-- A one-axis index set is its coordinate's range. -/
def idxEquiv1 {n : Nat} : (⟨1, ![n]⟩ : Shape).Idx ≃ Fin n where
  toFun i := i 0
  invFun e := ix1 e
  left_inv i := (eq_ix1 i).symm
  right_inv _ := rfl

/-- THE SCATTER WITH A COMMUTATIVE SUM AS ITS BODY READ AT `n`: the operand's entry plus the sum of the updates whose
    row number is `n` (the fold's order does not matter in a commutative monoid). -/
theorem scatter_add_vec_apply {α : Type} [AddCommMonoid α] (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter (vecScatterDims R E wf) f x idx upd (ix1 n)
      = x (ix1 n) + ∑ e : Fin E, if (idx (rowIdx e)).toInt = (n.val : Int) then upd (ix1 e) else 0 := by
  unfold Host.scatter
  refine (foldl_add_apply _ (fun k => (vecScatterDims R E wf).resultIdx? ((⟨1, ![E]⟩ : Shape).rowMajor.symm k) idx)
    (fun k => upd ((⟨1, ![E]⟩ : Shape).rowMajor.symm k)) (ix1 n) ?_ (List.finRange (⟨1, ![E]⟩ : Shape).numel) x).trans ?_
  · intro r k
    cases h : (vecScatterDims R E wf).resultIdx? ((⟨1, ![E]⟩ : Shape).rowMajor.symm k) idx with
    | none => simp
    | some i =>
      by_cases hi : ix1 n = i
      · subst hi; simp [hf]
      · have h' : ¬ (some i = some (ix1 n)) := fun e => hi (Option.some.inj e).symm
        simp [hi, h']
  · congr 1
    rw [← Fin.sum_univ_def]
    refine Fintype.sum_equiv ((⟨1, ![E]⟩ : Shape).rowMajor.symm.trans idxEquiv1) _ _ fun k => ?_
    rw [Equiv.trans_apply]
    generalize (⟨1, ![E]⟩ : Shape).rowMajor.symm k = j
    obtain ⟨e, rfl⟩ : ∃ e : Fin E, j = ix1 e := ⟨j 0, eq_ix1 j⟩
    show _ = if (idx (rowIdx e)).toInt = (n.val : Int) then upd (ix1 e) else 0
    by_cases h : (idx (rowIdx e)).toInt = (n.val : Int)
    · rw [if_pos ((vec_lands_iff wf idx e n).mpr h), if_pos h]
    · rw [if_neg (mt (vec_lands_iff wf idx e n).mp h), if_neg h]

/-- The same with the dimension numbers as a program prints them. -/
theorem host_scatter_add_vec_apply {α : Type} [AddCommMonoid α] (d : ScatterDims ⟨1, ![R]⟩ ⟨2, ![E, 1]⟩ ⟨1, ![E]⟩)
    (hd : d = vecScatterDims R E wf) (f : α → α → α) (hf : ∀ a b, f a b = a + b)
    (x : (⟨1, ![R]⟩ : Shape).Idx → α) (idx : IVec ⟨2, ![E, 1]⟩ w) (upd : (⟨1, ![E]⟩ : Shape).Idx → α) (n : Fin R) :
    Host.scatter d f x idx upd (ix1 n)
      = x (ix1 n) + ∑ e : Fin E, if (idx (rowIdx e)).toInt = (n.val : Int) then upd (ix1 e) else 0 := by
  subst hd
  exact scatter_add_vec_apply wf f hf x idx upd n

end Count

end Cert.LibScatterRows

end
-- ==== Proof.LibJoinedRows.lean ====
/-
  Layout reads a gather / scatter pipeline over an edge list meets, each at an entry given by its coordinates, generic in
  the extents and (but for the last section) the entry type:

  * a scalar spread over any shape reads the scalar everywhere;
  * a vector `[a]` made a column `[a, 1]` reads, at `(i, 0)`, the vector's entry `i`;
  * a column `[a, 1]` spread across `[a, b]` reads, at `(i, j)`, the column's entry `i`;
  * the transpose of an `[a, b]` matrix reads, at `(j, i)`, the matrix at `(i, j)`;
  * two arrays joined along their first axis (`[E₁, C]` and `[E₂, C]` into `[T, C]`; `[E₁]` and `[E₂]` into `[T]`) read
    the first piece at a row below `E₁` and the second piece, `E₁` rows up, at or above it;
  * a sum over the `T = E₁ + E₂` rows of a joined array is the sum over the first piece's rows plus the sum over the
    second piece's.
-/
import Idealize.ShloMosaic.Lib.Pipeline.Value
import Idealize.ShloMosaic.Lib.ValueIdx

noncomputable section

open scoped BigOperators

namespace Cert.LibJoinedRows

open Idealize.ShloMosaic Idealize.ShloMosaic.ValueIdx

variable {α : Type}

/-- A scalar spread over a shape reads the scalar at every index. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads the vector's entry. -/
theorem bcast_vec_col_apply {a : ℕ} (h : (⟨1, ![a]⟩ : Shape).BroadcastsInDim ⟨2, ![a, 1]⟩ (![0] : Fin 1 → Fin 2))
    (x : (⟨1, ![a]⟩ : Shape).Idx → α) (i : Fin a) (u : Fin 1) :
    broadcastInDim ⟨2, ![a, 1]⟩ ![0] h x (ix2 i u) = x (ix1 i) := by
  refine broadcastInDim_apply _ h x _ (ix1 i) fun ax => ?_
  match ax with
  | ⟨0, _⟩ =>
    show i.val = if a = 1 then 0 else i.val
    split
    · have := i.isLt; omega
    · rfl

/-- A column spread across the columns of each row reads the column's entry of that row. -/
theorem bcast_col_rows_apply {a b : ℕ} (h : (⟨2, ![a, 1]⟩ : Shape).BroadcastsInDim ⟨2, ![a, b]⟩ (![0, 1] : Fin 2 → Fin 2))
    (x : (⟨2, ![a, 1]⟩ : Shape).Idx → α) (i : Fin a) (j : Fin b) :
    broadcastInDim ⟨2, ![a, b]⟩ ![0, 1] h x (ix2 i j) = x (ix2 i (0 : Fin 1)) := by
  refine broadcastInDim_apply _ h x _ (ix2 i (0 : Fin 1)) fun ax => ?_
  match ax with
  | ⟨0, _⟩ =>
    show i.val = if a = 1 then 0 else i.val
    split
    · have := i.isLt; omega
    · rfl
  | ⟨1, _⟩ => rfl

/-- The transpose of a matrix reads the matrix at the swapped coordinates. -/
theorem transpose2_apply {a b : ℕ} (h : (⟨2, ![a, b]⟩ : Shape).Transposes [1, 0] ⟨2, ![b, a]⟩)
    (x : (⟨2, ![a, b]⟩ : Shape).Idx → α) (j : Fin b) (i : Fin a) :
    transpose ⟨2, ![b, a]⟩ [1, 0] x h (ix2 j i) = x (ix2 i j) := by
  refine transpose_apply [1, 0] x h (ix2 j i) (ix2 i j) fun bx => ?_
  match bx with
  | ⟨0, _⟩ => rfl
  | ⟨1, _⟩ => rfl

/-! ## Two arrays joined along the first axis -/

section Join
variable {E1 E2 T C : ℕ}

/-- A row below the first piece's extent reads the first piece. -/
theorem join_rows_left (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E1) (he : e.val < T) (c : Fin C) :
    concatenate ⟨2, ![T, C]⟩ 0 [⟨_, x₁⟩, ⟨_, x₂⟩] h (ix2 ⟨e.val, he⟩ c) = x₁ (ix2 e c) :=
  concatenate_pair_apply_left 0 x₁ x₂ h _ rfl (ix2 e c) (fun b => by
    match b with
    | ⟨0, _⟩ => rfl
    | ⟨1, _⟩ => rfl)

/-- A row at or above it reads the second piece, that many rows up. -/
theorem join_rows_right (h : Shape.Concatenates [(⟨2, ![E1, C]⟩ : Shape), ⟨2, ![E2, C]⟩] ⟨2, ![T, C]⟩ 0)
    (x₁ : (⟨2, ![E1, C]⟩ : Shape).Idx → α) (x₂ : (⟨2, ![E2, C]⟩ : Shape).Idx → α) (e : Fin E2) (he : E1 + e.val < T) (c : Fin C) :
    concatenate ⟨2, ![T, C]⟩ 0 [⟨_, x₁⟩, ⟨_, x₂⟩] h (ix2 ⟨E1 + e.val, he⟩ c) = x₂ (ix2 e c) :=
  concatenate_pair_apply_right 0 x₁ x₂ h _ rfl rfl (ix2 e c) (fun b hb => by
    match b with
    | ⟨0, _⟩ => exact absurd rfl hb
    | ⟨1, _⟩ => rfl) (by show e.val + E1 = E1 + e.val; omega)

/-- The same for one-axis arrays: an entry below the first piece's extent … -/
theorem join_vec_left (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E1) (he : e.val < T) :
    concatenate ⟨1, ![T]⟩ 0 [⟨_, x₁⟩, ⟨_, x₂⟩] h (ix1 ⟨e.val, he⟩) = x₁ (ix1 e) :=
  concatenate_pair_apply_left 0 x₁ x₂ h _ rfl (ix1 e) (fun b => by
    match b with
    | ⟨0, _⟩ => rfl)

/-- … and one at or above it. -/
theorem join_vec_right (h : Shape.Concatenates [(⟨1, ![E1]⟩ : Shape), ⟨1, ![E2]⟩] ⟨1, ![T]⟩ 0)
    (x₁ : (⟨1, ![E1]⟩ : Shape).Idx → α) (x₂ : (⟨1, ![E2]⟩ : Shape).Idx → α) (e : Fin E2) (he : E1 + e.val < T) :
    concatenate ⟨1, ![T]⟩ 0 [⟨_, x₁⟩, ⟨_, x₂⟩] h (ix1 ⟨E1 + e.val, he⟩) = x₂ (ix1 e) :=
  concatenate_pair_apply_right 0 x₁ x₂ h _ rfl rfl (ix1 e) (fun b hb => by
    match b with
    | ⟨0, _⟩ => exact absurd rfl hb) (by show e.val + E1 = E1 + e.val; omega)

/-- A sum over `T = E₁ + E₂` rows is the sum over the first `E₁` plus the sum over the last `E₂`. -/
theorem sum_rows_split {M : Type} [AddCommMonoid M] (hT : T = E1 + E2) (f : Fin T → M) :
    ∑ e', f e' = ∑ e : Fin E1, f ⟨e.val, by omega⟩ + ∑ e : Fin E2, f ⟨E1 + e.val, by omega⟩ := by
  subst hT
  rw [Fin.sum_univ_add]
  congr 1 <;> exact Finset.sum_congr rfl fun e _ => congrArg f (Fin.ext rfl)

end Join

end Cert.LibJoinedRows

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.KernelHost.lean ====
/-
  What the buffers hold where each of the kernel program's two regions is entered, entry by entry.

  Before the dense-layer region the host has cut the dense weight `Wfc` `[256, 512]` into its left and right halves
  and transposed each (entry `(k, j)` of a half is `Wfc (j, k)` resp. `Wfc (j, 256 + k)`), laid the bias out as a row,
  formed the folded input weight `(Wc · Wihᵀ)(k, j') = Σ_l Wc (k, l) · Wih (j', l)`, transposed the hidden weight and laid
  the two gate biases out as rows. Between the regions it gathers, for every edge, the row of the hidden features at
  the edge's source and adds it into the row of the edge's target, starting from zeros: entry `(n, k)` of the result
  is the sum over the edges that end in `n` of the source rows' column `k`.
-/
import proofs.«180257_j40346922778954_2_alg».proof.Proof.Gen.KernelIdeal.Frame
import proofs.«180257_j40346922778954_2_alg».proof.Proof.Spec
import proofs.«180257_j40346922778954_2_alg».proof.Proof.LibGatherRows
import proofs.«180257_j40346922778954_2_alg».proof.Proof.LibScatterRows
import proofs.«180257_j40346922778954_2_alg».proof.Proof.LibJoinedRows
import proofs.«180257_j40346922778954_2_alg».proof.Proof.LibPlainDot
import proofs.«180257_j40346922778954_2_alg».proof.Proof.LibRowLayout
import proofs.«180257_j40346922778954_2_alg».proof.Proof.LibKeeps
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

open scoped BigOperators

namespace Cert.KernelIdeal.HostValue

open Idealize.ShloMosaic Idealize.ShloMosaic.TcCoe Idealize.SL.Sem Idealize.ShloMosaic.ValueIdx Idealize.ShloMosaic.StableHlo
open Cert.KernelIdeal Cert.KernelIdeal.Gen Cert.GruSpec Cert.LibGatherRows

/-- The one-column list of source rows the gather reads: the first row of the edge array, a negative number moved up
    by the number of nodes. -/
def srcIdx (x10 : IVec S2x320000 32) : IVec S320000x1 32 :=
  broadcastInDim S320000x1 ![0] bcast_S320000_S320000x1_0
    (select (cmpi .slt (shapeCast S320000 (extractStridedSlice S1x320000 ![0, 0] x10 slices_S2x320000_S1x320000_0_0) shapeCasts_S1x320000_S320000)
        (broadcastInDim S320000 ![] bcast_S_S320000 (constantI S_ 32 0#32)))
      (addi (shapeCast S320000 (extractStridedSlice S1x320000 ![0, 0] x10 slices_S2x320000_S1x320000_0_0) shapeCasts_S1x320000_S320000)
        (broadcastInDim S320000 ![] bcast_S_S320000 (constantI S_ 32 20000#32)))
      (shapeCast S320000 (extractStridedSlice S1x320000 ![0, 0] x10 slices_S2x320000_S1x320000_0_0) shapeCasts_S1x320000_S320000))

/-- The one-column list of target rows the edge sum adds into: the second row of the edge array. -/
def dstIdx (x10 : IVec S2x320000 32) : IVec S320000x1 32 :=
  broadcastInDim S320000x1 ![0] bcast_S320000_S320000x1_0
    (shapeCast S320000 (extractStridedSlice S1x320000 ![1, 0] x10 slices_S2x320000_S1x320000_1_0) shapeCasts_S1x320000_S320000)

variable (m : (ℓ : Loc nD τ sig) → Buf (Elt Ideal) ℓ) (ρ : Dev nD → PrngReg)

/-! ## Where the dense-layer region is entered -/

theorem V1_x (c : Dev nD) : V1 m ρ c main_arg1 = m ((c : Thread nD τ).loc main_arg1) := by
  show StableHlo.after hostOps0 (W0 m ρ c) (Proc.devRef .tc main_arg1) = W0 m ρ c (Proc.devRef .tc main_arg1)
  keeps_host hostOps0

theorem V1_h (c : Dev nD) : V1 m ρ c main_arg0 = m ((c : Thread nD τ).loc main_arg0) := by
  show StableHlo.after hostOps0 (W0 m ρ c) (Proc.devRef .tc main_arg0) = W0 m ρ c (Proc.devRef .tc main_arg0)
  keeps_host hostOps0

/-- The left half of the dense weight, transposed. -/
theorem V1_wx (c : Dev nD) (k j : Fin 256) :
    V1 m ρ c main_v1 (ix2 k j) = m ((c : Thread nD τ).loc main_arg3) (ix2 j (lo k)) := by
  have e : V1 m ρ c main_v1 = transpose S256x256 [1, 0]
      (extractStridedSlice S256x256 ![0, 0] (m ((c : Thread nD τ).loc main_arg3)) slices_S256x512_S256x256_0_0)
      transposes_S256x256_S256x256_1_0 := by
    show StableHlo.after hostOps0 (W0 m ρ c) (Proc.devRef .tc main_v1) = _
    after_results_simp <;> rfl
  rw [e]
  refine (Cert.LibJoinedRows.transpose2_apply transposes_S256x256_S256x256_1_0 _ k j).trans ?_
  exact extractStridedSlice_apply _ _ slices_S256x512_S256x256_0_0 (ix2 j k) (ix2 j (lo k)) (fun a => by
    match a with
    | ⟨0, _⟩ => exact (Nat.zero_add _).symm
    | ⟨1, _⟩ => exact (Nat.zero_add _).symm)

/-- The right half of the dense weight, transposed. -/
theorem V1_wh (c : Dev nD) (k j : Fin 256) :
    V1 m ρ c main_v3 (ix2 k j) = m ((c : Thread nD τ).loc main_arg3) (ix2 j (hi k)) := by
  have e : V1 m ρ c main_v3 = transpose S256x256 [1, 0]
      (extractStridedSlice S256x256 ![0, 256] (m ((c : Thread nD τ).loc main_arg3)) slices_S256x512_S256x256_0_256)
      transposes_S256x256_S256x256_1_0 := by
    show StableHlo.after hostOps0 (W0 m ρ c) (Proc.devRef .tc main_v3) = _
    after_results_simp <;> rfl
  rw [e]
  refine (Cert.LibJoinedRows.transpose2_apply transposes_S256x256_S256x256_1_0 _ k j).trans ?_
  exact extractStridedSlice_apply _ _ slices_S256x512_S256x256_0_256 (ix2 j k) (ix2 j (hi k)) (fun a => by
    match a with
    | ⟨0, _⟩ => exact (Nat.zero_add _).symm
    | ⟨1, _⟩ => rfl)

/-- The dense bias as a row. -/
theorem V1_b (c : Dev nD) (j : Fin 256) :
    V1 m ρ c main_v4 (ix2 (0 : Fin 1) j) = m ((c : Thread nD τ).loc main_arg4) (ix1 j) := by
  have e : V1 m ρ c main_v4 = shapeCast S1x256 (m ((c : Thread nD τ).loc main_arg4)) shapeCasts_S256_S1x256 := by
    show StableHlo.after hostOps0 (W0 m ρ c) (Proc.devRef .tc main_v4) = _
    after_results_simp <;> rfl
  rw [e]
  exact Cert.LibRowLayout.shapeCast_b_1b_apply _ shapeCasts_S256_S1x256 0 j

/-! ## Where the gated-cell region is entered -/

/-- A buffer the first stretch wrote, that neither the dense-layer region nor the second stretch writes, still holds
    at the second region's entry what the first stretch left in it. -/
theorem V3_of_first (c : Dev nD) (b : Ref sig .tc) (hne : ∀ w, Pipeline.arrRef spec0 w ≠ b)
    (hkeep : StableHlo.after hostOps1 (W2 m ρ c) (Proc.devRef .tc b) = W2 m ρ c (Proc.devRef .tc b)) :
    V3 m ρ c b = V1 m ρ c b :=
  hkeep.trans (W2_of_ne m ρ c b hne)

/-- Entry `(k, j')` of `Wc · Wihᵀ`. -/
def foldW (Wc : S256x256.Idx → EReal) (Wih : S768x256.Idx → EReal) (k : Fin 256) (j' : Fin 768) : EReal :=
  ∑ l : Fin 256, Wc (ix2 k l) * Wih (ix2 j' l)

/-- The folded input weight. -/
theorem V3_wi (c : Dev nD) (k : Fin 256) (j' : Fin 768) :
    V3 m ρ c main_v6 (ix2 k j') = foldW (m ((c : Thread nD τ).loc main_arg5)) (m ((c : Thread nD τ).loc main_arg6)) k j' := by
  have e0 : V3 m ρ c main_v6 = V1 m ρ c main_v6 := V3_of_first m ρ c main_v6 (by decide) (by keeps_host hostOps1)
  have e : V1 m ρ c main_v6 = Host.dotGeneral (F := Ideal) (φ₁ := .f32) (φ₂ := .f32) dot_S256x256_S256x768_S256x768_1_0_0_1_n_n none (m ((c : Thread nD τ).loc main_arg5))
      (transpose S256x768 [1, 0] (m ((c : Thread nD τ).loc main_arg6)) transposes_S768x256_S256x768_1_0) := by
    show StableHlo.after hostOps0 (W0 m ρ c) (Proc.devRef .tc main_v6) = _
    after_results_simp <;> rfl
  rw [e0, e]
  unfold foldW
  simp only [Host.dotGeneral]
  refine (Cert.LibPlainDot.Plain.dotGeneral_apply (D := dot_S256x256_S256x768_S256x768_1_0_0_1_n_n) ⟨rfl, rfl, rfl, rfl, rfl, rfl⟩ _ _ _ _ k j').trans ?_
  refine Finset.sum_congr rfl fun l _ => ?_
  rw [Cert.LibJoinedRows.transpose2_apply transposes_S768x256_S256x768_1_0 _ l j']

/-- The hidden weight, transposed. -/
theorem V3_wh (c : Dev nD) (k : Fin 256) (j' : Fin 768) :
    V3 m ρ c main_v7 (ix2 k j') = m ((c : Thread nD τ).loc main_arg7) (ix2 j' k) := by
  have e0 : V3 m ρ c main_v7 = V1 m ρ c main_v7 := V3_of_first m ρ c main_v7 (by decide) (by keeps_host hostOps1)
  have e : V1 m ρ c main_v7 = transpose S256x768 [1, 0] (m ((c : Thread nD τ).loc main_arg7)) transposes_S768x256_S256x768_1_0 := by
    show StableHlo.after hostOps0 (W0 m ρ c) (Proc.devRef .tc main_v7) = _
    after_results_simp <;> rfl
  rw [e0, e]
  exact Cert.LibJoinedRows.transpose2_apply transposes_S768x256_S256x768_1_0 _ k j'

/-- The input-gate bias as a row. -/
theorem V3_bi (c : Dev nD) (j' : Fin 768) :
    V3 m ρ c main_v8 (ix2 (0 : Fin 1) j') = m ((c : Thread nD τ).loc main_arg8) (ix1 j') := by
  have e0 : V3 m ρ c main_v8 = V1 m ρ c main_v8 := V3_of_first m ρ c main_v8 (by decide) (by keeps_host hostOps1)
  have e : V1 m ρ c main_v8 = shapeCast S1x768 (m ((c : Thread nD τ).loc main_arg8)) shapeCasts_S768_S1x768 := by
    show StableHlo.after hostOps0 (W0 m ρ c) (Proc.devRef .tc main_v8) = _
    after_results_simp <;> rfl
  rw [e0, e]
  exact Cert.LibRowLayout.shapeCast_b_1b_apply _ shapeCasts_S768_S1x768 0 j'

/-- The hidden-gate bias as a row. -/
theorem V3_bh (c : Dev nD) (j' : Fin 768) :
    V3 m ρ c main_v9 (ix2 (0 : Fin 1) j') = m ((c : Thread nD τ).loc main_arg9) (ix1 j') := by
  have e0 : V3 m ρ c main_v9 = V1 m ρ c main_v9 := V3_of_first m ρ c main_v9 (by decide) (by keeps_host hostOps1)
  have e : V1 m ρ c main_v9 = shapeCast S1x768 (m ((c : Thread nD τ).loc main_arg9)) shapeCasts_S768_S1x768 := by
    show StableHlo.after hostOps0 (W0 m ρ c) (Proc.devRef .tc main_v9) = _
    after_results_simp <;> rfl
  rw [e0, e]
  exact Cert.LibRowLayout.shapeCast_b_1b_apply _ shapeCasts_S768_S1x768 0 j'

/-- The hidden features the dense-layer region wrote are what the gated-cell region reads. -/
theorem V3_xr (c : Dev nD) : V3 m ρ c main_v10_0 = (dat0 (V1 m ρ) c).arrAt 5 cfg0.N :=
  (show StableHlo.after hostOps1 (W2 m ρ c) (Proc.devRef .tc main_v10_0) = W2 m ρ c (Proc.devRef .tc main_v10_0) by
    keeps_host hostOps1).trans (W2_arr m ρ c 5)

/-- The edge array at the second stretch is the argument as launched. -/
theorem W2_edges (c : Dev nD) : W2 m ρ c (Proc.devRef .tc main_arg10) = m ((c : Thread nD τ).loc main_arg10) :=
  (W2_of_ne m ρ c main_arg10 (by decide)).trans
    (show StableHlo.after hostOps0 (W0 m ρ c) (Proc.devRef .tc main_arg10) = W0 m ρ c (Proc.devRef .tc main_arg10) by
      keeps_host hostOps0)

/-- The aggregated rows: entry `(n, k)` is the sum over the edges that end in `n` of column `k` of the hidden
    features' row at the edge's source. -/
theorem V3_agg (c : Dev nD) (n : Fin 20000) (k : Fin 256) :
    V3 m ρ c main_v25 (ix2 n k)
      = aggE (fun e => clampRow 20000 (by norm_num) (srcIdx (m ((c : Thread nD τ).loc main_arg10)) (rowIdx e)))
          (fun e => (dstIdx (m ((c : Thread nD τ).loc main_arg10)) (rowIdx e)).toInt)
          (fun n k => (dat0 (V1 m ρ) c).arrAt 6 cfg0.N (ix2 n k)) n k := by
  have e : V3 m ρ c main_v25 = Host.scatterAdd scatter_S20000x256_S320000x1_S320000x256_1_0_0_1
      (broadcastInDim S20000x256 ![] bcast_S_S20000x256 (constant (F := Ideal) S_ .f32 0x00000000#32))
      (dstIdx (m ((c : Thread nD τ).loc main_arg10)))
      (extf .f32 (Host.gather gather_S20000x256_S320000x1_S320000x256_1_0_n_n_0_1_1256 ((dat0 (V1 m ρ) c).arrAt 6 cfg0.N)
        (srcIdx (m ((c : Thread nD τ).loc main_arg10)))) bitsLt_bf16_f32) := by
    show StableHlo.after hostOps1 (W2 m ρ c) (Proc.devRef .tc main_v25) = _
    after_results_simp
    rw [W2_edges m ρ c, W2_arr m ρ c 6]
    rfl
  rw [e]
  refine (Cert.LibScatterRows.host_scatterAdd_rows_apply scatter_S20000x256_S320000x1_S320000x256_1_0_0_1_wf _ rfl _ _ _ n k).trans ?_
  rw [Cert.LibJoinedRows.bcast_scalar_apply]
  show Ideal.ofBits .f32 0x00000000#32 + _ = _
  rw [Ideal.ofBits_zero_f32, zero_add]
  unfold aggE
  refine Finset.sum_congr rfl fun e _ => ?_
  refine if_congr Iff.rfl ?_ rfl
  refine Eq.trans (b := Host.gather gather_S20000x256_S320000x1_S320000x256_1_0_n_n_0_1_1256 ((dat0 (V1 m ρ) c).arrAt 6 cfg0.N)
    (srcIdx (m ((c : Thread nD τ).loc main_arg10))) (ix2 e k)) rfl ?_
  exact Cert.LibGatherRows.host_gather_rows_apply gather_S20000x256_S320000x1_S320000x256_1_0_n_n_0_1_1256_wf (by norm_num) _ rfl _ _ e k

end Cert.KernelIdeal.HostValue

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«180257_j40346922778954_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.KernelFc.lean ====
/-
  The dense layer of the kernel, read entry by entry.

  The first region walks the 20000 rows of the two activation arrays in ten blocks of 2000 rows. At each block it
  multiplies the block of `x` by the whole weight `Wx`, the block of `h` by the whole weight `Wh`, adds the two products
  and the bias row, and clamps below at zero; it writes the result back twice, once in single precision and once in the
  half-width format. Over the extended reals both copies hold the same number: narrowing a format is the identity there.

  Three steps. (1) What the body computes at entry `(p, q)` of a block, as a term of the five staged blocks: each product
  into the zero accumulator is `Σ_k l (p, k) · r (k, q)`, the bias row spread over the rows reads its entry `q`, the
  zero word is the number zero. (2) Block `t` of an activation array is rows `2000 t … 2000 t + 1999`; the weights and
  the bias are staged whole; so what point `t` writes back is block `t` of ONE function of the whole arrays, `fcArr`.
  (3) Row `r` lies in the block of point `r / 2000`, every point writes back, so each output array ends holding `fcArr`.
-/
import proofs.«180257_j40346922778954_2_alg».proof.Proof.Gen.KernelIdeal.Frame
import proofs.«180257_j40346922778954_2_alg».proof.Proof.Spec
import proofs.«180257_j40346922778954_2_alg».proof.Proof.LibPlainDotFormats
import proofs.«180257_j40346922778954_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.FcValue
open Idealize.ShloMosaic Idealize.ShloMosaic.TcCoe Idealize.SL.Sem Idealize.ShloMosaic.ValueIdx
open Cert.KernelIdeal Cert.KernelIdeal.Gen Cert.GruSpec
variable (V : (c : Dev nD) → (b : Ref sig .tc) → Buf (Elt Ideal) ((c : Thread nD τ).loc b))

/-! ## The body at an entry of a block -/

/-- The dimension numbers of the kernel's two products are the plain ones: the second axis of the left operand against
    the first axis of the right operand, no batch axis. -/
theorem plain_dot : Cert.LibPlainDot.Plain dot_S2000x256_S256x256_S2000x256_1_0_0_1_n_n := ⟨rfl, rfl, rfl, rfl, rfl, rfl⟩

/-- The single-precision payload at entry `(p, q)`: the two products, summed, plus the bias entry, clamped below at
    zero. Narrowing the operands and re-casting to the same shape change nothing over the extended reals. -/
theorem pay1_apply (x0 x1 : Vec Ideal S2000x256 .f32) (x2 x3 : Vec Ideal S256x256 .f32) (x4 : Vec Ideal S1x256 .f32)
    (p : Fin 2000) (q : Fin 256) :
    k0_pay1 x0 x1 x2 x3 x4 (ix2 p q)
      = max (((∑ k : Fin 256, x0 (ix2 p k) * x2 (ix2 k q)) + ∑ k : Fin 256, x1 (ix2 p k) * x3 (ix2 k q)) + x4 (ix2 (0 : Fin 1) q)) 0 := by
  unfold k0_pay1
  simp only [shapeCast_self]
  rw [maximumf_apply, addf_apply, addf_apply, broadcast_apply]
  have ex := plain_dot.matmul_zero_apply_formats none (truncf (F := Ideal) .bf16 x0 bitsLt_bf16_f32) (truncf (F := Ideal) .bf16 x2 bitsLt_bf16_f32) p q
  have eh := plain_dot.matmul_zero_apply_formats none (truncf (F := Ideal) .bf16 x1 bitsLt_bf16_f32) (truncf (F := Ideal) .bf16 x3 bitsLt_bf16_f32) p q
  have eb := Cert.LibRowLayout.broadcastTo_1b_ab_apply x4 broadcasts_S1x256_S2000x256 p q
  have ez : (FloatOps.ofBits (F := Ideal) .f32 0x00000000#32 : EReal) = 0 := Ideal.ofBits_zero_f32
  refine (congrArg₂ max (congrArg₂ (· + ·) (congrArg₂ (· + ·) ex eh) eb) ez).trans ?_
  rfl

/-- The half-width payload is the single-precision one, re-typed: rounding to the narrower format is the identity on
    the extended reals. -/
theorem pay2_apply (x0 x1 : Vec Ideal S2000x256 .f32) (x2 x3 : Vec Ideal S256x256 .f32) (x4 : Vec Ideal S1x256 .f32)
    (j : S2000x256.Idx) : k0_pay2 x0 x1 x2 x3 x4 j = k0_pay1 x0 x1 x2 x3 x4 j := rfl

/-! ## The staged blocks as rows of the arrays -/

/-- Both offsets of a whole-block access are zero. -/
theorem zero_offsets : (![0, 0] : Fin 2 → Nat) = fun _ => 0 := funext fun a => by fin_cases a <;> rfl

/-- The dense layer over the whole array, from the contents the region finds. -/
abbrev fcArr (c : Dev nD) : S20000x256.Idx → EReal := fun i =>
  fcE (fun n k => V c main_arg1 (ix2 n k)) (fun n k => V c main_arg0 (ix2 n k)) (fun k j => V c main_v1 (ix2 k j))
      (fun k j => V c main_v3 (ix2 k j)) (fun j => V c main_v4 (ix2 (0 : Fin 1) j)) (i 0) (i 1)

/-- The block indices at point `t`, decided over the ten points: the two activation arrays and the two outputs are at
    block row `t`, column block 0; the weights and the bias row stay at block (0, 0). -/
theorem block_indices : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Block `t` of the first activation array is its rows `2000 t … 2000 t + 1999`. -/
theorem xBlock_apply (c : Dev nD) (t : Fin cfg0.N) (p : Fin 2000) (k : Fin 256) (n : Fin 20000)
    (hn : n.val = t.val * 2000 + p.val) :
    (iblk0 V c 0 t : S2000x256.Idx → EReal) (ix2 p k) = (V c main_arg1 : S20000x256.Idx → EReal) (ix2 n k) := by
  obtain ⟨e0, e1, -⟩ := block_indices t
  unfold iblk0
  rw [View.read_apply]
  show V c main_arg1 (((cfg0.win 0).blk t).view.emb (ix2 p k)) = V c main_arg1 (ix2 n k)
  refine congrArg _ (funext fun a => Fin.ext ?_)
  match a with
  | ⟨0, _⟩ => show win0_0.index t (0 : Fin 2) * 2000 + 1 * p.val = n.val; omega
  | ⟨1, _⟩ => show win0_0.index t (1 : Fin 2) * 256 + 1 * k.val = k.val; omega

/-- Block `t` of the second activation array is its rows `2000 t … 2000 t + 1999`. -/
theorem hBlock_apply (c : Dev nD) (t : Fin cfg0.N) (p : Fin 2000) (k : Fin 256) (n : Fin 20000)
    (hn : n.val = t.val * 2000 + p.val) :
    (iblk0 V c 1 t : S2000x256.Idx → EReal) (ix2 p k) = (V c main_arg0 : S20000x256.Idx → EReal) (ix2 n k) := by
  obtain ⟨-, -, e0, e1, -⟩ := block_indices t
  unfold iblk0
  rw [View.read_apply]
  show V c main_arg0 (((cfg0.win 1).blk t).view.emb (ix2 p k)) = V c main_arg0 (ix2 n k)
  refine congrArg _ (funext fun a => Fin.ext ?_)
  match a with
  | ⟨0, _⟩ => show win0_1.index t (0 : Fin 2) * 2000 + 1 * p.val = n.val; omega
  | ⟨1, _⟩ => show win0_1.index t (1 : Fin 2) * 256 + 1 * k.val = k.val; omega

/-- The first weight is staged whole at every point. -/
theorem wxBlock_apply (c : Dev nD) (t : Fin cfg0.N) (k : Fin 256) (j : Fin 256) :
    (iblk0 V c 2 t : S256x256.Idx → EReal) (ix2 k j) = (V c main_v1 : S256x256.Idx → EReal) (ix2 k j) := by
  obtain ⟨-, -, -, -, e0, e1, -⟩ := block_indices t
  unfold iblk0
  rw [View.read_apply]
  show V c main_v1 (((cfg0.win 2).blk t).view.emb (ix2 k j)) = V c main_v1 (ix2 k j)
  refine congrArg _ (funext fun a => Fin.ext ?_)
  match a with
  | ⟨0, _⟩ => show win0_2.index t (0 : Fin 2) * 256 + 1 * k.val = k.val; omega
  | ⟨1, _⟩ => show win0_2.index t (1 : Fin 2) * 256 + 1 * j.val = j.val; omega

/-- The second weight is staged whole at every point. -/
theorem whBlock_apply (c : Dev nD) (t : Fin cfg0.N) (k : Fin 256) (j : Fin 256) :
    (iblk0 V c 3 t : S256x256.Idx → EReal) (ix2 k j) = (V c main_v3 : S256x256.Idx → EReal) (ix2 k j) := by
  obtain ⟨-, -, -, -, -, -, e0, e1, -⟩ := block_indices t
  unfold iblk0
  rw [View.read_apply]
  show V c main_v3 (((cfg0.win 3).blk t).view.emb (ix2 k j)) = V c main_v3 (ix2 k j)
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * j.val = j.val; omega

/-- The bias row is staged whole at every point. -/
theorem bBlock_apply (c : Dev nD) (t : Fin cfg0.N) (u : Fin 1) (j : Fin 256) :
    (iblk0 V c 4 t : S1x256.Idx → EReal) (ix2 u j) = (V c main_v4 : S1x256.Idx → EReal) (ix2 u j) := by
  obtain ⟨-, -, -, -, -, -, -, -, e0, e1, -⟩ := block_indices t
  unfold iblk0
  rw [View.read_apply]
  show V c main_v4 (((cfg0.win 4).blk t).view.emb (ix2 u j)) = V c main_v4 (ix2 u j)
  refine congrArg _ (funext fun a => Fin.ext ?_)
  match a with
  | ⟨0, _⟩ => show win0_4.index t (0 : Fin 2) * 1 + 1 * u.val = u.val; omega
  | ⟨1, _⟩ => show win0_4.index t (1 : Fin 2) * 256 + 1 * j.val = j.val; omega

/-- What the body computes at row `p` of point `t`'s block is the dense layer at row `2000 t + p` of the array. -/
theorem pay_block_apply (c : Dev nD) (t : Fin cfg0.N) (p : Fin 2000) (q : Fin 256) (n : Fin 20000)
    (hn : n.val = t.val * 2000 + p.val) :
    k0_pay1 (iblk0 V c 0 t) (iblk0 V c 1 t) (iblk0 V c 2 t) (iblk0 V c 3 t) (iblk0 V c 4 t) (ix2 p q) = fcArr V c (ix2 n q) := by
  refine (pay1_apply (iblk0 V c 0 t) (iblk0 V c 1 t) (iblk0 V c 2 t) (iblk0 V c 3 t) (iblk0 V c 4 t) p q).trans ?_
  have ex : ∀ k : Fin 256, (iblk0 V c 0 t : S2000x256.Idx → EReal) (ix2 p k) = V c main_arg1 (ix2 n k) := fun k => xBlock_apply V c t p k n hn
  have eh : ∀ k : Fin 256, (iblk0 V c 1 t : S2000x256.Idx → EReal) (ix2 p k) = V c main_arg0 (ix2 n k) := fun k => hBlock_apply V c t p k n hn
  have ewx : ∀ k : Fin 256, (iblk0 V c 2 t : S256x256.Idx → EReal) (ix2 k q) = V c main_v1 (ix2 k q) := fun k => wxBlock_apply V c t k q
  have ewh : ∀ k : Fin 256, (iblk0 V c 3 t : S256x256.Idx → EReal) (ix2 k q) = V c main_v3 (ix2 k q) := fun k => whBlock_apply V c t k q
  have eb : (iblk0 V c 4 t : S1x256.Idx → EReal) (ix2 (0 : Fin 1) q) = V c main_v4 (ix2 (0 : Fin 1) q) := bBlock_apply V c t 0 q
  simp only [ex, eh, ewx, ewh, eb]
  rfl

/-! ## What each point writes back, and the arrays after the region -/

/-- Where point `t`'s block of the first output sits in its array: row `p` of the block is row `2000 t + p`. -/
theorem f32_block_row (t : Fin cfg0.N) (p : Fin 2000) (q : Fin 256) (n : Fin 20000) (hn : n.val = t.val * 2000 + p.val) :
    ((cfg0.win 5).blk t).view.emb (ix2 p q) = (ix2 n q : S20000x256.Idx) := by
  obtain ⟨-, -, -, -, -, -, -, -, -, -, e0, e1, -⟩ := block_indices t
  refine funext fun a => Fin.ext ?_
  match a with
  | ⟨0, _⟩ => show win0_5.index t (0 : Fin 2) * 2000 + 1 * p.val = n.val; omega
  | ⟨1, _⟩ => show win0_5.index t (1 : Fin 2) * 256 + 1 * q.val = q.val; omega

/-- What point `t` writes back to the first output is block `t` of the dense layer of the whole array. -/
theorem f32_writeback_eq (c : Dev nD) (t : Fin cfg0.N) :
    (dat0 (F := Ideal) V c).flushed 5 t = ((cfg0.win 5).blk t).view.read (Elt Ideal) (fcArr V c) := by
  show (cfg0.win 5).cut (grid0.coords t) ((dat0 V c).after 5 t) = _
  rw [after0_5]
  unfold out0_5
  rw [View.canon_unit_zero zero_offsets]
  simp only [View.ld_unit_zero (S := S2000x256) zero_offsets, View.ld_unit_zero (S := S256x256) zero_offsets, View.ld_unit_zero (S := S1x256) zero_offsets]
  show (k0_pay1 (iblk0 V c 0 t) (iblk0 V c 1 t) (iblk0 V c 2 t) (iblk0 V c 3 t) (iblk0 V c 4 t) : S2000x256.Idx → EReal)
    = fun y : S2000x256.Idx => fcArr V c (((cfg0.win 5).blk t).view.emb y)
  funext y
  obtain ⟨p, q, rfl⟩ : ∃ (p : Fin 2000) (q : Fin 256), y = ix2 p q := ⟨y 0, y 1, eq_ix2 y⟩
  have ht : t.val < 10 := t.isLt
  have hp : t.val * 2000 + p.val < 20000 := by have := p.isLt; omega
  rw [f32_block_row t p q ⟨t.val * 2000 + p.val, hp⟩ rfl]
  exact pay_block_apply V c t p q _ rfl

/-- Where point `t`'s block of the second output sits in its array: row `p` of the block is row `2000 t + p`. -/
theorem bf16_block_row (t : Fin cfg0.N) (p : Fin 2000) (q : Fin 256) (n : Fin 20000) (hn : n.val = t.val * 2000 + p.val) :
    ((cfg0.win 6).blk t).view.emb (ix2 p q) = (ix2 n q : S20000x256.Idx) := by
  obtain ⟨-, -, -, -, -, -, -, -, -, -, -, -, e0, e1⟩ := block_indices t
  refine funext fun a => Fin.ext ?_
  match a with
  | ⟨0, _⟩ => show win0_6.index t (0 : Fin 2) * 2000 + 1 * p.val = n.val; omega
  | ⟨1, _⟩ => show win0_6.index t (1 : Fin 2) * 256 + 1 * q.val = q.val; omega

/-- What point `t` writes back to the second output is block `t` of the same dense layer: the narrower format holds
    the same extended reals. -/
theorem bf16_writeback_eq (c : Dev nD) (t : Fin cfg0.N) :
    (dat0 (F := Ideal) V c).flushed 6 t = ((cfg0.win 6).blk t).view.read (Elt Ideal) (fcArr V c) := by
  show (cfg0.win 6).cut (grid0.coords t) ((dat0 V c).after 6 t) = _
  rw [after0_6]
  unfold out0_6
  rw [View.canon_unit_zero zero_offsets]
  simp only [View.ld_unit_zero (S := S2000x256) zero_offsets, View.ld_unit_zero (S := S256x256) zero_offsets, View.ld_unit_zero (S := S1x256) zero_offsets]
  show (k0_pay2 (iblk0 V c 0 t) (iblk0 V c 1 t) (iblk0 V c 2 t) (iblk0 V c 3 t) (iblk0 V c 4 t) : S2000x256.Idx → EReal)
    = fun y : S2000x256.Idx => fcArr V c (((cfg0.win 6).blk t).view.emb y)
  funext y
  obtain ⟨p, q, rfl⟩ : ∃ (p : Fin 2000) (q : Fin 256), y = ix2 p q := ⟨y 0, y 1, eq_ix2 y⟩
  have ht : t.val < 10 := t.isLt
  have hp : t.val * 2000 + p.val < 20000 := by have := p.isLt; omega
  rw [bf16_block_row t p q ⟨t.val * 2000 + p.val, hp⟩ rfl]
  exact (pay2_apply _ _ _ _ _ (ix2 p q)).trans (pay_block_apply V c t p q _ rfl)

/-- An index of the array is in point `t`'s block of the first output iff each coordinate is in the block's range. -/
theorem mem_f32_block (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v10_0).slice (win0_5.rect t)).set ↔ _
  rw [View.set_slice_whole, Rect.mem_set_unit]
  exact Iff.rfl

/-- The same for the second output. -/
theorem mem_bf16_block (t : Fin cfg0.N) (i : S20000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v10_1).slice (win0_6.rect t)).set ↔ _
  rw [View.set_slice_whole, Rect.mem_set_unit]
  exact Iff.rfl

/-- Row `r` of the first output is written back by point `r / 2000`. -/
theorem f32_rows_covered (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  have ht : (i 0).val / 2000 < 10 := by omega
  refine ⟨⟨(i 0).val / 2000, ht⟩, flush0_5 _, ?_⟩
  rw [mem_f32_block]
  obtain ⟨-, -, -, -, -, -, -, -, -, -, e0, e1, -⟩ := block_indices ⟨(i 0).val / 2000, ht⟩
  have e0' : win0_5.index ⟨(i 0).val / 2000, ht⟩ (0 : Fin 2) = (i 0).val / 2000 := e0
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    omega
  | ⟨1, _⟩ =>
    show win0_5.index ⟨(i 0).val / 2000, ht⟩ (1 : Fin 2) * 256 ≤ (i 1).val ∧ (i 1).val < win0_5.index ⟨(i 0).val / 2000, ht⟩ (1 : Fin 2) * 256 + 256
    omega

/-- Row `r` of the second output is written back by point `r / 2000`. -/
theorem bf16_rows_covered (i : S20000x256.Idx) : ∃ t : Fin cfg0.N, (cfg0.win 6).flush t = true ∧ i ∈ ((cfg0.win 6).blk t).view.set := by
  have hi0 : (i 0).val < 20000 := (i 0).isLt
  have hi1 : (i 1).val < 256 := (i 1).isLt
  have ht : (i 0).val / 2000 < 10 := by omega
  refine ⟨⟨(i 0).val / 2000, ht⟩, flush0_6 _, ?_⟩
  rw [mem_bf16_block]
  obtain ⟨-, -, -, -, -, -, -, -, -, -, -, -, e0, e1⟩ := block_indices ⟨(i 0).val / 2000, ht⟩
  have e0' : win0_6.index ⟨(i 0).val / 2000, ht⟩ (0 : Fin 2) = (i 0).val / 2000 := e0
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    omega

/-- The first output array after the region: the dense layer of the whole array. -/
theorem f32_array_eq (c : Dev nD) : (dat0 (F := Ideal) V c).arrAt 5 cfg0.N = fcArr V c :=
  (dat0 (F := Ideal) V c).arrAt_eq_of_cover 5 (fcArr V c) (fun t _ => f32_writeback_eq V c t) f32_rows_covered

/-- The second output array after the region: the same. -/
theorem bf16_array_eq (c : Dev nD) : (dat0 (F := Ideal) V c).arrAt 6 cfg0.N = fcArr V c :=
  (dat0 (F := Ideal) V c).arrAt_eq_of_cover 6 (fcArr V c) (fun t _ => bf16_writeback_eq V c t) bf16_rows_covered

/-- The region's single-precision output at entry `(n, j)` is the dense layer of the contents the region finds. -/
theorem fc_f32 (c : Dev nD) (n : Fin 20000) (j : Fin 256) :
    (dat0 (F := Ideal) V c).arrAt 5 cfg0.N (ix2 n j)
      = fcE (fun n k => V c main_arg1 (ix2 n k)) (fun n k => V c main_arg0 (ix2 n k)) (fun k j => V c main_v1 (ix2 k j))
          (fun k j => V c main_v3 (ix2 k j)) (fun j => V c main_v4 (ix2 (0 : Fin 1) j)) n j :=
  congrFun (f32_array_eq V c) (ix2 n j)

/-- The region's half-width output at entry `(n, j)` is the same value. -/
theorem fc_bf16 (c : Dev nD) (n : Fin 20000) (j : Fin 256) :
    (dat0 (F := Ideal) V c).arrAt 6 cfg0.N (ix2 n j)
      = fcE (fun n k => V c main_arg1 (ix2 n k)) (fun n k => V c main_arg0 (ix2 n k)) (fun k j => V c main_v1 (ix2 k j))
          (fun k j => V c main_v3 (ix2 k j)) (fun j => V c main_v4 (ix2 (0 : Fin 1) j)) n j :=
  congrFun (bf16_array_eq V c) (ix2 n j)

end Cert.KernelIdeal.FcValue

end
-- ==== Proof.KernelGru.lean ====
/-
  The gated cell's region of the kernel, read entry by entry.

  At each of its 20 grid points the region's body takes a block of 1000 nodes: their hidden rows `xr` and their
  aggregated rows `agg` (both `[1000, 256]`), together with the whole input weight and hidden weight (`[256, 768]`) and
  the two bias rows (`[1, 768]`).  It forms the two 768-wide pre-activations  gi = agg · Wi + bi  and  gh = xr · Wh + bh,
  cuts each into its three 256-wide thirds, and stores
      (1 − z) · tanh(gi₂ + r · gh₂) + z · xr,   r = σ(gi₀ + gh₀),   z = σ(gi₁ + gh₁)
  over the whole block.  Over the extended reals the narrowing of the operands to a shorter format is the identity, so
  entry `(p, q)` of the stored block is `GruSpec.cell` of row `p`'s pre-activations (`pay_apply`).

  Point `t`'s blocks of the row-blocked arrays are rows `1000 t … 1000 t + 999`; the weights' and bias rows' one block is
  the whole array.  So point `t` writes back block `t` of ONE function of the arrays the region finds, `gruArr`
  (`flushed_eq`); the 20 blocks cover the `[20000, 256]` result (row `r` lies in block `r / 1000`), and the result array
  after the region is `gruArr` (`gru_array`), entry `(n, j)` being `GruSpec.gruE … n j` (`gru_out`).
-/
import proofs.«180257_j40346922778954_2_alg».proof.Proof.Gen.KernelIdeal.Frame
import proofs.«180257_j40346922778954_2_alg».proof.Proof.Spec
import proofs.«180257_j40346922778954_2_alg».proof.Proof.LibPlainDotFormats
import proofs.«180257_j40346922778954_2_alg».proof.Proof.LibRowLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GruValue
open Idealize.ShloMosaic Idealize.ShloMosaic.TcCoe Idealize.SL.Sem Idealize.ShloMosaic.ValueIdx
open Cert.KernelIdeal Cert.KernelIdeal.Gen Cert.GruSpec

/-! ## The body's payload at an entry -/

/-- A product of a `[1000, 256]` block and a `[256, 768]` weight into the zero accumulator, at `(p, c)`: row `p` against
    column `c`.  The narrowing format changes of both operands are the identity on extended reals. -/
theorem matmul_col (a : FVec Ideal S1000x256 .f32) (w : FVec Ideal S256x768 .f32) (p : Fin 1000) (c : Fin 768) :
    matmul dot_S1000x256_S256x768_S1000x768_1_0_0_1_n_n none (truncf .bf16 a bitsLt_bf16_f32)
        (truncf .bf16 w bitsLt_bf16_f32) (constant (F := Ideal) S1000x768 .f32 0x00000000#32) (ix2 p c)
      = ∑ k : Fin 256, a (ix2 p k) * w (ix2 k c) :=
  Cert.LibPlainDot.Plain.matmul_zero_apply_formats ⟨rfl, rfl, rfl, rfl, rfl, rfl⟩ none
    (truncf .bf16 a bitsLt_bf16_f32) (truncf .bf16 w bitsLt_bf16_f32) p c

/-- A bias row spread over the 1000 rows of a block reads, at `(p, c)`, the row's entry `c`. -/
theorem bias_col (b : FVec Ideal S1x768 .f32) (p : Fin 1000) (c : Fin 768) :
    broadcastTo S1000x768 b broadcasts_S1x768_S1000x768 (ix2 p c) = b (ix2 (0 : Fin 1) c) :=
  Cert.LibRowLayout.broadcastTo_1b_ab_apply b broadcasts_S1x768_S1000x768 p c

/-- The sigmoid of a block, read at an index. -/
theorem logistic_apply {s : Shape} (x : FVec Ideal s .f32) (i : s.Idx) : logistic x i = Ideal.logistic (x i) := rfl

/-- The hyperbolic tangent of a block, read at an index. -/
theorem tanh_apply {s : Shape} (x : FVec Ideal s .f32) (i : s.Idx) : tanh x i = Ideal.tanh (x i) := rfl

/-- The first 256-wide third of a 768-wide row block, at `(p, q)`, is the row's column `q`. -/
theorem third0_apply {α : Type} (x : S1000x768.Idx → α) (p : Fin 1000) (q : Fin 256) :
    extractStridedSlice S1000x256 ![0, 0] x slices_S1000x768_o0_0_S1000x256 (ix2 p q) = x (ix2 p (g0 q)) :=
  extractStridedSlice_apply _ x _ (ix2 p q) (ix2 p (g0 q)) fun a => by
    match a with
    | ⟨0, _⟩ => show p.val = 0 + p.val; omega
    | ⟨1, _⟩ => show q.val = 0 + q.val; omega

/-- The second third, at `(p, q)`, is the row's column `256 + q`. -/
theorem third1_apply {α : Type} (x : S1000x768.Idx → α) (p : Fin 1000) (q : Fin 256) :
    extractStridedSlice S1000x256 ![0, 256] x slices_S1000x768_o0_256_S1000x256 (ix2 p q) = x (ix2 p (g1 q)) :=
  extractStridedSlice_apply _ x _ (ix2 p q) (ix2 p (g1 q)) fun a => by
    match a with
    | ⟨0, _⟩ => show p.val = 0 + p.val; omega
    | ⟨1, _⟩ => show 256 + q.val = 256 + q.val; rfl

/-- The last third, at `(p, q)`, is the row's column `512 + q`. -/
theorem third2_apply {α : Type} (x : S1000x768.Idx → α) (p : Fin 1000) (q : Fin 256) :
    extractStridedSlice S1000x256 ![0, 512] x slices_S1000x768_o0_512_S1000x256 (ix2 p q) = x (ix2 p (g2 q)) :=
  extractStridedSlice_apply _ x _ (ix2 p q) (ix2 p (g2 q)) fun a => by
    match a with
    | ⟨0, _⟩ => show p.val = 0 + p.val; omega
    | ⟨1, _⟩ => show 512 + q.val = 512 + q.val; rfl

/-- THE BODY'S PAYLOAD AT AN ENTRY: row `p`, column `q` of what the body stores is the gated cell of the row's two
    pre-activations — the aggregated row `v2` against the input weight `v5` plus the bias `v9`, the hidden row `v0`
    against the hidden weight `v14` plus the bias `v18` — and the hidden row itself. -/
theorem pay_apply (v0 v2 : Vec Ideal S1000x256 .f32) (v5 v14 : Vec Ideal S256x768 .f32) (v9 v18 : Vec Ideal S1x768 .f32)
    (p : Fin 1000) (q : Fin 256) :
    k1_pay1 v0 v2 v5 v9 v14 v18 (ix2 p q)
      = cell (fun j' => (∑ k : Fin 256, v2 (ix2 p k) * v5 (ix2 k j')) + v9 (ix2 (0 : Fin 1) j'))
          (fun j' => (∑ k : Fin 256, v0 (ix2 p k) * v14 (ix2 k j')) + v18 (ix2 (0 : Fin 1) j'))
          (fun k => v0 (ix2 p k)) q := by
  unfold k1_pay1 cell
  simp only [addf_apply, mulf_apply, subf_apply, broadcast_apply, logistic_apply, tanh_apply,
    third0_apply, third1_apply, third2_apply, shapeCast_self, matmul_col, bias_col]
  rfl

/-! ## From the blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps, decided over the 20 grid points: the row-blocked windows (hidden features, aggregated rows,
    result) sit at block `(t, 0)`, the weights and bias rows at block `(0, 0)`. -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Block `t` of the hidden features is rows `1000 t … 1000 t + 999` of the array. -/
theorem hidden_block_apply (c : Dev nD) (t : Fin cfg1.N) (p : Fin 1000) (n : Fin 20000) (hn : n.val = t.val * 1000 + p.val)
    (k : Fin 256) : (iblk1 V c 0 t : Vec Ideal S1000x256 .f32) (ix2 p k) = V c main_v10_0 (ix2 n k) := by
  obtain ⟨⟨e0, e1⟩, -⟩ := block_indices t
  unfold iblk1
  rw [View.read_apply]
  show V c main_v10_0 _ = V c main_v10_0 _
  congr 1
  funext a
  apply Fin.ext
  match a with
  | ⟨0, _⟩ => show win1_0.index t (0 : Fin 2) * 1000 + 1 * p.val = n.val; rw [e0, hn]; omega
  | ⟨1, _⟩ => show win1_0.index t (1 : Fin 2) * 256 + 1 * k.val = k.val; rw [e1]; omega

/-- Block `t` of the aggregated rows is rows `1000 t … 1000 t + 999` of the array. -/
theorem agg_block_apply (c : Dev nD) (t : Fin cfg1.N) (p : Fin 1000) (n : Fin 20000) (hn : n.val = t.val * 1000 + p.val)
    (k : Fin 256) : (iblk1 V c 1 t : Vec Ideal S1000x256 .f32) (ix2 p k) = V c main_v25 (ix2 n k) := by
  obtain ⟨-, ⟨e0, e1⟩, -⟩ := block_indices t
  unfold iblk1
  rw [View.read_apply]
  show V c main_v25 _ = V c main_v25 _
  congr 1
  funext a
  apply Fin.ext
  match a with
  | ⟨0, _⟩ => show win1_1.index t (0 : Fin 2) * 1000 + 1 * p.val = n.val; rw [e0, hn]; omega
  | ⟨1, _⟩ => show win1_1.index t (1 : Fin 2) * 256 + 1 * k.val = k.val; rw [e1]; omega

/-- The input weight's one block is the whole array, at every point. -/
theorem wi_block_apply (c : Dev nD) (t : Fin cfg1.N) (k : Fin 256) (j' : Fin 768) :
    (iblk1 V c 2 t : Vec Ideal S256x768 .f32) (ix2 k j') = V c main_v6 (ix2 k j') := by
  obtain ⟨-, -, ⟨e0, e1⟩, -⟩ := block_indices t
  unfold iblk1
  rw [View.read_apply]
  show V c main_v6 _ = V c main_v6 _
  congr 1
  funext a
  apply Fin.ext
  match a with
  | ⟨0, _⟩ => show win1_2.index t (0 : Fin 2) * 256 + 1 * k.val = k.val; rw [e0]; omega
  | ⟨1, _⟩ => show win1_2.index t (1 : Fin 2) * 768 + 1 * j'.val = j'.val; rw [e1]; omega

/-- The hidden weight's one block is the whole array, at every point. -/
theorem wh_block_apply (c : Dev nD) (t : Fin cfg1.N) (k : Fin 256) (j' : Fin 768) :
    (iblk1 V c 3 t : Vec Ideal S256x768 .f32) (ix2 k j') = V c main_v7 (ix2 k j') := by
  obtain ⟨-, -, -, ⟨e0, e1⟩, -⟩ := block_indices t
  unfold iblk1
  rw [View.read_apply]
  show V c main_v7 _ = V c main_v7 _
  congr 1
  funext a
  apply Fin.ext
  match a with
  | ⟨0, _⟩ => show win1_3.index t (0 : Fin 2) * 256 + 1 * k.val = k.val; rw [e0]; omega
  | ⟨1, _⟩ => show win1_3.index t (1 : Fin 2) * 768 + 1 * j'.val = j'.val; rw [e1]; omega

/-- The input bias row's one block is the whole row, at every point. -/
theorem bi_block_apply (c : Dev nD) (t : Fin cfg1.N) (j' : Fin 768) :
    (iblk1 V c 4 t : Vec Ideal S1x768 .f32) (ix2 (0 : Fin 1) j') = V c main_v8 (ix2 (0 : Fin 1) j') := by
  obtain ⟨-, -, -, -, ⟨e0, e1⟩, -⟩ := block_indices t
  unfold iblk1
  rw [View.read_apply]
  show V c main_v8 _ = V c main_v8 _
  congr 1
  funext a
  apply Fin.ext
  match a with
  | ⟨0, _⟩ => show win1_4.index t (0 : Fin 2) * 1 + 1 * 0 = 0; rw [e0]
  | ⟨1, _⟩ => show win1_4.index t (1 : Fin 2) * 768 + 1 * j'.val = j'.val; rw [e1]; omega

/-- The hidden bias row's one block is the whole row, at every point. -/
theorem bh_block_apply (c : Dev nD) (t : Fin cfg1.N) (j' : Fin 768) :
    (iblk1 V c 5 t : Vec Ideal S1x768 .f32) (ix2 (0 : Fin 1) j') = V c main_v9 (ix2 (0 : Fin 1) j') := by
  obtain ⟨-, -, -, -, -, ⟨e0, e1⟩, -⟩ := block_indices t
  unfold iblk1
  rw [View.read_apply]
  show V c main_v9 _ = V c main_v9 _
  congr 1
  funext a
  apply Fin.ext
  match a with
  | ⟨0, _⟩ => show win1_5.index t (0 : Fin 2) * 1 + 1 * 0 = 0; rw [e0]
  | ⟨1, _⟩ => show win1_5.index t (1 : Fin 2) * 768 + 1 * j'.val = j'.val; rw [e1]; omega

/-- The gated update of every node, as one function of the arrays the region finds: entry `(n, j)` is `gruE` of the
    hidden features, the aggregated rows, the two weights and the two bias rows. -/
abbrev gruArr (c : Dev nD) : S20000x256.Idx → Elt Ideal .f32 := fun i =>
  gruE (fun n k => V c main_v10_0 (ix2 n k)) (fun n k => V c main_v25 (ix2 n k)) (fun k j' => V c main_v6 (ix2 k j'))
    (fun k j' => V c main_v7 (ix2 k j')) (fun j' => V c main_v8 (ix2 (0 : Fin 1) j')) (fun j' => V c main_v9 (ix2 (0 : Fin 1) j'))
    (i 0) (i 1)

/-- What the body stores at row `p`, column `q` of point `t`'s block is the gated update of node `1000 t + p` at column `q`. -/
theorem block_entry (c : Dev nD) (t : Fin cfg1.N) (p : Fin 1000) (q : Fin 256) (n : Fin 20000)
    (hn : n.val = t.val * 1000 + p.val) :
    k1_pay1 (iblk1 V c 0 t) (iblk1 V c 1 t) (iblk1 V c 2 t) (iblk1 V c 4 t) (iblk1 V c 3 t) (iblk1 V c 5 t) (ix2 p q)
      = gruE (fun n k => V c main_v10_0 (ix2 n k)) (fun n k => V c main_v25 (ix2 n k)) (fun k j' => V c main_v6 (ix2 k j'))
          (fun k j' => V c main_v7 (ix2 k j')) (fun j' => V c main_v8 (ix2 (0 : Fin 1) j'))
          (fun j' => V c main_v9 (ix2 (0 : Fin 1) j')) n q := by
  refine (pay_apply _ _ _ _ _ _ p q).trans ?_
  unfold gruE
  simp only [hidden_block_apply V c t p n hn, agg_block_apply V c t p n hn, wi_block_apply V c t, wh_block_apply V c t,
    bi_block_apply V c t, bh_block_apply V c t]

/-- WHAT POINT `t` WRITES BACK is block `t` of `gruArr`: the body's one whole-block store leaves its payload, whose
    entry `(p, q)` is the gated update of node `1000 t + p`, the array index under the block's `(p, q)`. -/
theorem flushed_eq (c : Dev nD) (t : Fin cfg1.N) :
    (dat1 (F := Ideal) V c).flushed 6 t = ((cfg1.win 6).blk t).view.read (Elt Ideal) (gruArr V c) := by
  show (cfg1.win 6).cut (grid1.coords t) ((dat1 V c).after 6 t) = _
  rw [after1_6]
  unfold out1_6
  rw [View.canon_unit_zero zero_offsets]
  simp only [View.ld_unit_zero (S := S1000x256) zero_offsets, View.ld_unit_zero (S := S256x768) zero_offsets,
    View.ld_unit_zero (S := S1x768) zero_offsets]
  obtain ⟨-, -, -, -, -, -, ⟨e0, e1⟩⟩ := block_indices t
  funext j
  obtain ⟨p, q, rfl⟩ : ∃ (p : Fin 1000) (q : Fin 256), j = ix2 p q := ⟨j 0, j 1, eq_ix2 j⟩
  have ht : t.val < 20 := t.isLt
  refine (block_entry V c t p q ⟨t.val * 1000 + p.val, by omega⟩ rfl).trans ?_
  show gruArr V c (ix2 ⟨t.val * 1000 + p.val, by omega⟩ q) = gruArr V c (((cfg1.win 6).blk t).view.emb (ix2 p q))
  congr 1
  funext a
  apply Fin.ext
  match a with
  | ⟨0, _⟩ => show t.val * 1000 + p.val = win1_6.index t (0 : Fin 2) * 1000 + 1 * p.val; rw [e0]; omega
  | ⟨1, _⟩ => show q.val = win1_6.index t (1 : Fin 2) * 256 + 1 * q.val; rw [e1]; omega

/-- An index of the result array is in point `t`'s block iff each coordinate is in the block's range on its axis. -/
theorem mem_blk (t : Fin cfg1.N) (i : S20000x256.Idx) :
    i ∈ ((cfg1.win 6).blk t).view.set ↔ ∀ a : Fin 2, win1_6.index t a * S1000x256.size a ≤ (i a).val
      ∧ (i a).val < win1_6.index t a * S1000x256.size a + S1000x256.size a := by
  show i ∈ ((View.whole main_v26).slice (win1_6.rect t)).set ↔ _
  rw [View.set_slice_whole, Rect.mem_set_unit]
  exact Iff.rfl

/-- Every index of the result array is in some point's block: row `r` is in the block of point `r / 1000`. -/
theorem covered (i : S20000x256.Idx) :
    ∃ t : Fin cfg1.N, (cfg1.win 6).flush t = true ∧ i ∈ ((cfg1.win 6).blk t).view.set := by
  have hi0 : (i 0).val < 20000 := (i 0).isLt
  have hi1 : (i 1).val < 256 := (i 1).isLt
  refine ⟨⟨(i 0).val / 1000, by show (i 0).val / 1000 < 20; omega⟩, flush1_6 _, ?_⟩
  rw [mem_blk]
  obtain ⟨-, -, -, -, -, -, ⟨e0, e1⟩⟩ := block_indices ⟨(i 0).val / 1000, by show (i 0).val / 1000 < 20; omega⟩
  intro a
  match a with
  | ⟨0, _⟩ =>
    show win1_6.index _ (0 : Fin 2) * 1000 ≤ (i 0).val ∧ (i 0).val < win1_6.index _ (0 : Fin 2) * 1000 + 1000
    rw [e0]; show (i 0).val / 1000 * 1000 ≤ (i 0).val ∧ (i 0).val < (i 0).val / 1000 * 1000 + 1000; omega
  | ⟨1, _⟩ =>
    show win1_6.index _ (1 : Fin 2) * 256 ≤ (i 1).val ∧ (i 1).val < win1_6.index _ (1 : Fin 2) * 256 + 256
    rw [e1]; omega

/-- THE RESULT ARRAY after the region: the gated update of every node. -/
theorem gru_array (c : Dev nD) : (dat1 (F := Ideal) V c).arrAt 6 cfg1.N = gruArr V c :=
  (dat1 V c).arrAt_eq_of_cover 6 (gruArr V c) (fun t _ => flushed_eq V c t) covered

/-- Entry `(n, j)` of the result array after the region is the gated update `gruE` of the arrays the region finds. -/
theorem gru_out (c : Dev nD) (n : Fin 20000) (j : Fin 256) :
    (dat1 (F := Ideal) V c).arrAt 6 cfg1.N (ix2 n j)
      = gruE (fun n k => V c main_v10_0 (ix2 n k)) (fun n k => V c main_v25 (ix2 n k)) (fun k j' => V c main_v6 (ix2 k j'))
          (fun k j' => V c main_v7 (ix2 k j')) (fun j' => V c main_v8 (ix2 (0 : Fin 1) j')) (fun j' => V c main_v9 (ix2 (0 : Fin 1) j')) n j := by
  rw [gru_array]

end Cert.KernelIdeal.GruValue

end
-- ==== Proof.KernelValue.lean ====
/-
  The kernel program's result, entry by entry, as a function of the argument arrays.

  The result buffer after the run is what the gated-cell region's blocks leave, the gated update of the buffers that
  region was entered with: the hidden features (what the dense-layer region's blocks left), the aggregated rows (the
  edge sum of the hidden features' rows), the folded input weight, the transposed hidden weight and the two bias rows.
  Reading each of them down to the arguments gives the folded arrangement `GruSpec.outK`.
-/
import proofs.«180257_j40346922778954_2_alg».proof.Proof.KernelRun
import proofs.«180257_j40346922778954_2_alg».proof.Proof.KernelHost
import proofs.«180257_j40346922778954_2_alg».proof.Proof.KernelFc
import proofs.«180257_j40346922778954_2_alg».proof.Proof.KernelGru
import proofs.«180257_j40346922778954_2_alg».proof.Proof.Spec

set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.GruSpec Cert.LibGatherRows Cert.KernelIdeal.HostValue
open Cert.KernelIdeal.FcValue Cert.KernelIdeal.GruValue

variable (m : (ℓ : Loc nD τ sig) → Buf (Elt Ideal) ℓ) (ρ : Dev nD → PrngReg)

/-- The hidden features in split form, of the arguments as launched. -/
abbrev xrOf (c : Dev nD) : Fin 20000 → Fin 256 → EReal :=
  xrK (fun n k => m ((c : Thread nD τ).loc main_arg1) (ix2 n k)) (fun n k => m ((c : Thread nD τ).loc main_arg0) (ix2 n k))
    (fun j k => m ((c : Thread nD τ).loc main_arg3) (ix2 j k)) (fun j => m ((c : Thread nD τ).loc main_arg4) (ix1 j))

/-- What the dense-layer region leaves in its f32 output array. -/
theorem hidden_f32 (c : Dev nD) (n : Fin 20000) (k : Fin 256) :
    (dat0 (V1 m ρ) c).arrAt 5 cfg0.N (ix2 n k) = xrOf m c n k := by
  rw [fc_f32 (V1 m ρ) c n k]
  simp only [V1_x m ρ c, V1_h m ρ c, V1_wx m ρ c, V1_wh m ρ c, V1_b m ρ c]
  rfl

/-- What it leaves in its bf16 output array: the same numbers. -/
theorem hidden_bf16 (c : Dev nD) (n : Fin 20000) (k : Fin 256) :
    (dat0 (V1 m ρ) c).arrAt 6 cfg0.N (ix2 n k) = xrOf m c n k := by
  rw [fc_bf16 (V1 m ρ) c n k]
  simp only [V1_x m ρ c, V1_h m ρ c, V1_wx m ρ c, V1_wh m ρ c, V1_b m ρ c]
  rfl

/-- THE RESULT: the buffer the program returns, at entry `(n, j)`, is the folded arrangement of the arguments. -/
theorem result_eq (c : Dev nD) (n : Fin 20000) (j : Fin 256) :
    W4 m ρ c (Proc.devRef .tc main_v26) (ix2 n j)
      = outK (fun n k => m ((c : Thread nD τ).loc main_arg1) (ix2 n k)) (fun n k => m ((c : Thread nD τ).loc main_arg0) (ix2 n k))
          (fun j k => m ((c : Thread nD τ).loc main_arg3) (ix2 j k)) (fun j => m ((c : Thread nD τ).loc main_arg4) (ix1 j))
          (fun k l => m ((c : Thread nD τ).loc main_arg5) (ix2 k l)) (fun j l => m ((c : Thread nD τ).loc main_arg6) (ix2 j l))
          (fun j k => m ((c : Thread nD τ).loc main_arg7) (ix2 j k)) (fun j => m ((c : Thread nD τ).loc main_arg8) (ix1 j))
          (fun j => m ((c : Thread nD τ).loc main_arg9) (ix1 j))
          (fun e => clampRow 20000 (by norm_num) (srcIdx (m ((c : Thread nD τ).loc main_arg10)) (rowIdx e)))
          (fun e => (dstIdx (m ((c : Thread nD τ).loc main_arg10)) (rowIdx e)).toInt) n j := by
  have e4 : W4 m ρ c (Proc.devRef .tc main_v26) = (dat1 (V3 m ρ) c).arrAt 6 cfg1.N := W4_arr m ρ c 6
  rw [e4, gru_out (V3 m ρ) c n j]
  simp only [V3_xr m ρ c, V3_agg m ρ c, V3_wi m ρ c, V3_wh m ρ c, V3_bi m ρ c, V3_bh m ρ c, hidden_f32 m ρ c, hidden_bf16 m ρ c]
  rfl

end Cert.KernelIdeal.KValue

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.LibRowBcast.lean ====
/-
  A vector spread down the rows of a table by two host broadcasts, read at an entry: `[b] → [1, b]` (the vector laid
  along axis 1 of a one-row array) and `[1, b] → [a, b]` (the row repeated); entry `(i, j)` of the result is the
  vector's entry `j`.  Generic in the extents and the entry type.
-/
import Idealize.ShloMosaic.Lib.Pipeline.Value
import Idealize.ShloMosaic.Lib.ValueIdx

noncomputable section

namespace Cert.LibRowBcast

open Idealize.ShloMosaic Idealize.ShloMosaic.ValueIdx

variable {α : Type}

/-- A vector made a one-row array reads the vector's entry. -/
theorem bcast_vec_row_apply {b : ℕ} (h : (⟨1, ![b]⟩ : Shape).BroadcastsInDim ⟨2, ![1, b]⟩ (![1] : Fin 1 → Fin 2))
    (x : (⟨1, ![b]⟩ : Shape).Idx → α) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A one-row array repeated down the rows reads the row's entry of that column. -/
theorem bcast_row_rows_apply {a b : ℕ} (h : (⟨2, ![1, b]⟩ : Shape).BroadcastsInDim ⟨2, ![a, b]⟩ (![0, 1] : Fin 2 → Fin 2))
    (x : (⟨2, ![1, b]⟩ : Shape).Idx → α) (i : Fin a) (j : Fin b) :
    broadcastInDim ⟨2, ![a, b]⟩ ![0, 1] h x (ix2 i j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- The two together: the vector's entry `j` at every row. -/
theorem bcast_vec_rows_apply {a b : ℕ} (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2))
    (x : (⟨1, ![b]⟩ : Shape).Idx → α) (i : Fin a) (j : Fin b) :
    broadcastInDim ⟨2, ![a, b]⟩ ![0, 1] h₂ (broadcastInDim ⟨2, ![1, b]⟩ ![1] h₁ x) (ix2 i j) = x (ix1 j) :=
  (bcast_row_rows_apply h₂ _ i j).trans (bcast_vec_row_apply h₁ x 0 j)

end Cert.LibRowBcast

end
-- ==== Proof.RefValue.lean ====
/-
  The value of the reference program, entry by entry.

  The reference joins the two feature tables side by side, multiplies the joined rows by the transposed dense weight, adds
  the bias and clamps below at zero: the hidden features `xr`.  The messages `xr · Wc` are gathered along the edge list
  (row `e` of the gathered table is the message row of the edge's source, the row word clamped into the table) and
  scatter-added into zeros at the edges' destinations (the destination word read signed; an edge whose destination is no
  node is dropped): the aggregate `agg`.  The input side `gi = agg · Wihᵀ + bih` and the hidden side
  `gh = xr · Whhᵀ + bhh`, each 768 wide, are cut into three 256-wide thirds and meet in the gated cell, whose
  sigmoids are spelt `1 / (1 + e^(-x))` with the float word of one.  Each step is read at explicit coordinates, bottom up;
  the last theorem states that entry `(n, j)` of the result is the unfolded arrangement `outR` of the specification.
  The sums over the 320000 edges stay symbolic throughout.
-/
import proofs.«180257_j40346922778954_2_alg».proof.Proof.Gen.ReferenceIdeal.Read
import proofs.«180257_j40346922778954_2_alg».proof.Proof.Spec
import proofs.«180257_j40346922778954_2_alg».proof.Proof.LibConcatCols
import proofs.«180257_j40346922778954_2_alg».proof.Proof.LibGatherRows
import proofs.«180257_j40346922778954_2_alg».proof.Proof.LibScatterRows
import proofs.«180257_j40346922778954_2_alg».proof.Proof.LibJoinedRows
import proofs.«180257_j40346922778954_2_alg».proof.Proof.LibRowBcast
import proofs.«180257_j40346922778954_2_alg».proof.Proof.LibPlainDot
import Idealize.ShloMosaic.Lib.Pipeline.Value
import Idealize.ShloMosaic.Lib.ValueIdx
import Idealize.ShloMosaic.PureOps.Ideal.Laws
noncomputable section
open scoped BigOperators
namespace Cert.ReferenceIdeal.RefValue
open Idealize.ShloMosaic Idealize.ShloMosaic.TcCoe Idealize.SL.Sem Idealize.ShloMosaic.ValueIdx
open Cert.ReferenceIdeal Cert.ReferenceIdeal.Gen Cert.GruSpec Cert.LibGatherRows

/-! ## The word of one -/

/-- The float word 0x3F800000 denotes the number one. -/
theorem ofBits_one : Ideal.ofBits .f32 0x3F800000#32 = (1 : EReal) := by
  simp [Ideal.ofBits, Ideal.ieee]
  rw [← EReal.coe_mul]
  norm_num

/-- The sigmoid as the program spells it, `1 / (1 + e^(-x))` with the word of one, is the logistic function. -/
theorem div_one_eq_logistic (x : EReal) :
    Ideal.div (Ideal.ofBits .f32 0x3F800000#32) (Ideal.ofBits .f32 0x3F800000#32 + Ideal.exp (-x)) = Ideal.logistic x := by
  rw [ofBits_one]; rfl

/-! ## The hidden features `xr = max([x | h] · Wfcᵀ + bfc, 0)` -/

section Hidden
variable (a0 a1 : (⟨S20000x256, .f32⟩ : BufTy).Contents (Elt Ideal)) (a3 : (⟨S256x512, .f32⟩ : BufTy).Contents (Elt Ideal))
  (a4 : (⟨S256, .f32⟩ : BufTy).Contents (Elt Ideal))

/-- The joined rows `[x | h]`: column `k` of row `n` comes from `x` below 256 and from `h`, 256 columns back, from there on. -/
theorem v0_apply (n : Fin 20000) (k : Fin 512) :
    Read.val_main_v0 (F := Ideal) a0 a1 (ix2 n k) = xh (fun n k => a1 (ix2 n k)) (fun n k => a0 (ix2 n k)) n k := by
  unfold Read.val_main_v0 xh
  by_cases hk : k.val < 256
  · rw [dif_pos hk]
    exact Cert.LibConcatCols.concat_cols_left a1 a0 _ n ⟨k.val, hk⟩ k rfl
  · rw [dif_neg hk]
    exact Cert.LibConcatCols.concat_cols_right a1 a0 _ n ⟨k.val - 256, by omega⟩ k (by show k.val = 256 + (k.val - 256); omega)

/-- The transposed dense weight reads `Wfc` at the swapped coordinates. -/
theorem v1_apply (k : Fin 512) (j : Fin 256) : Read.val_main_v1 (F := Ideal) a3 (ix2 k j) = a3 (ix2 j k) := by
  rw [Read.val_main_v1_apply]
  exact congrArg a3 (funext fun a => Fin.ext (by match a with | ⟨0, _⟩ => rfl | ⟨1, _⟩ => rfl))

/-- The dense product at `(n, j)`: the sum over the 512 joined columns. -/
theorem v2_apply (n : Fin 20000) (j : Fin 256) :
    Read.val_main_v2 (F := Ideal) a0 a1 a3 (ix2 n j)
      = ∑ k : Fin 512, xh (fun n k => a1 (ix2 n k)) (fun n k => a0 (ix2 n k)) n k * a3 (ix2 j k) := by
  rw [Read.val_main_v2_apply]
  refine Finset.sum_congr rfl fun k _ => ?_
  have el : Read.lidx_main_v2 (ix2 n j) k = ix2 n k :=
    funext fun a => Fin.ext (by match a with | ⟨0, _⟩ => rfl | ⟨1, _⟩ => rfl)
  have er : Read.ridx_main_v2 (ix2 n j) k = ix2 k j :=
    funext fun a => Fin.ext (by match a with | ⟨0, _⟩ => rfl | ⟨1, _⟩ => rfl)
  rw [el, er, v0_apply, v1_apply]

/-- The dense bias spread down the rows reads the bias at the column. -/
theorem v4_apply (n : Fin 20000) (j : Fin 256) : Read.val_main_v4 (F := Ideal) a4 (ix2 n j) = a4 (ix1 j) := by
  rw [Read.val_main_v4_apply, Read.val_main_v3_apply]
  exact congrArg a4 (funext fun a => Fin.ext (by match a with | ⟨0, _⟩ => rfl))

/-- The clamp's zero operand is the number zero at every entry. -/
theorem call0_v0_apply (i : S20000x256.Idx) : Read.val_main_call0_v0 (F := Ideal) i = 0 := by
  rw [Read.val_main_call0_v0_apply, Read.val_main_call0_cst_apply]
  exact Ideal.ofBits_zero_f32

/-- The hidden features at `(n, j)`. -/
theorem v6_apply (n : Fin 20000) (j : Fin 256) :
    Read.val_main_v6 (F := Ideal) a0 a1 a3 a4 (ix2 n j)
      = xrR (fun n k => a1 (ix2 n k)) (fun n k => a0 (ix2 n k)) (fun j k => a3 (ix2 j k)) (fun j => a4 (ix1 j)) n j := by
  rw [Read.val_main_v6_apply, Read.val_main_v5_apply, v2_apply, v4_apply, call0_v0_apply]
  rfl

end Hidden

/-! ## Names for the pieces of the mathematics, over the argument arrays -/

section Pieces
variable (a0 a1 : (⟨S20000x256, .f32⟩ : BufTy).Contents (Elt Ideal)) (a3 : (⟨S256x512, .f32⟩ : BufTy).Contents (Elt Ideal))
  (a4 : (⟨S256, .f32⟩ : BufTy).Contents (Elt Ideal)) (a5 : (⟨S256x256, .f32⟩ : BufTy).Contents (Elt Ideal))
  (a6 a7 : (⟨S768x256, .f32⟩ : BufTy).Contents (Elt Ideal)) (a8 a9 : (⟨S768, .f32⟩ : BufTy).Contents (Elt Ideal))
  (a10 : (⟨S2x320000, .i32⟩ : BufTy).Contents (Elt Ideal))

/-- The hidden features `xr`. -/
abbrev xrV : Fin 20000 → Fin 256 → EReal :=
  xrR (fun n k => a1 (ix2 n k)) (fun n k => a0 (ix2 n k)) (fun j k => a3 (ix2 j k)) (fun j => a4 (ix1 j))

/-- The messages `xr · Wc`. -/
abbrev msgV : Fin 20000 → Fin 256 → EReal :=
  msgR (fun n k => a1 (ix2 n k)) (fun n k => a0 (ix2 n k)) (fun j k => a3 (ix2 j k)) (fun j => a4 (ix1 j)) (fun k l => a5 (ix2 k l))

/-- The source row of edge `e`: the gather's row word, clamped into the table. -/
abbrev rowV (e : Fin 320000) : Fin 20000 :=
  clampRow 20000 (by norm_num) (Read.val_main_v17 (F := Ideal) a10 (rowIdx e))

/-- The destination of edge `e`: the scatter's row word, read signed. -/
abbrev dstV (e : Fin 320000) : Int := (Read.val_main_v20 (F := Ideal) a10 (rowIdx e)).toInt

/-- The messages summed over the edges that end in each node. -/
abbrev aggV : Fin 20000 → Fin 256 → EReal := aggE (rowV a10) (dstV a10) (msgV a0 a1 a3 a4 a5)

end Pieces

/-! ## The messages, the gathered rows and their sum over the edges -/

section Messages
variable (a0 a1 : (⟨S20000x256, .f32⟩ : BufTy).Contents (Elt Ideal)) (a3 : (⟨S256x512, .f32⟩ : BufTy).Contents (Elt Ideal))
  (a4 : (⟨S256, .f32⟩ : BufTy).Contents (Elt Ideal)) (a5 : (⟨S256x256, .f32⟩ : BufTy).Contents (Elt Ideal))
  (a10 : (⟨S2x320000, .i32⟩ : BufTy).Contents (Elt Ideal))

/-- The messages at `(n, l)`: `Σ_k xr n k · Wc k l`. -/
theorem v7_apply (n : Fin 20000) (l : Fin 256) :
    Read.val_main_v7 (F := Ideal) a0 a1 a3 a4 a5 (ix2 n l) = msgV a0 a1 a3 a4 a5 n l := by
  rw [Read.val_main_v7_apply]
  refine Finset.sum_congr rfl fun k _ => ?_
  have el : Read.lidx_main_v7 (ix2 n l) k = ix2 n k :=
    funext fun a => Fin.ext (by match a with | ⟨0, _⟩ => rfl | ⟨1, _⟩ => rfl)
  have er : Read.ridx_main_v7 (ix2 n l) k = ix2 k l :=
    funext fun a => Fin.ext (by match a with | ⟨0, _⟩ => rfl | ⟨1, _⟩ => rfl)
  rw [el, er, v6_apply]

/-- The gathered rows: row `e` is the message row of the edge's source. -/
theorem v18_apply (e : Fin 320000) (l : Fin 256) :
    Read.val_main_v18 (F := Ideal) a0 a1 a3 a4 a5 a10 (ix2 e l) = msgV a0 a1 a3 a4 a5 (rowV a10 e) l := by
  unfold Read.val_main_v18
  refine (host_gather_rows_apply Cert.ReferenceIdeal.Gen.gather_S20000x256_S320000x1_S320000x256_1_0_n_n_0_1_1256_wf
    (by norm_num) _ rfl _ _ e l).trans ?_
  exact v7_apply a0 a1 a3 a4 a5 _ l

/-- The scatter's operand is the number zero at every entry. -/
theorem v19_apply (i : S20000x256.Idx) : Read.val_main_v19 (F := Ideal) i = 0 := by
  rw [Read.val_main_v19_apply, Read.val_main_cst_apply]
  exact Ideal.ofBits_zero_f32

/-- The scatter-add into zeros at `(n, l)`: the message rows of the edges that end in `n`, summed. -/
theorem v21_apply (n : Fin 20000) (l : Fin 256) :
    Read.val_main_v21 (F := Ideal) a0 a1 a3 a4 a5 a10 (ix2 n l) = aggV a0 a1 a3 a4 a5 a10 n l := by
  unfold Read.val_main_v21
  refine (Cert.LibScatterRows.host_scatterAdd_rows_apply
    Cert.ReferenceIdeal.Gen.scatter_S20000x256_S320000x1_S320000x256_1_0_0_1_wf _ rfl _ _ _ n l).trans ?_
  rw [v19_apply, zero_add]
  refine Finset.sum_congr rfl fun e _ => ?_
  rw [v18_apply]

end Messages

/-! ## The two 768-wide pre-activations of the gated cell -/

section Gates
variable (a0 a1 : (⟨S20000x256, .f32⟩ : BufTy).Contents (Elt Ideal)) (a3 : (⟨S256x512, .f32⟩ : BufTy).Contents (Elt Ideal))
  (a4 : (⟨S256, .f32⟩ : BufTy).Contents (Elt Ideal)) (a5 : (⟨S256x256, .f32⟩ : BufTy).Contents (Elt Ideal))
  (a6 a7 : (⟨S768x256, .f32⟩ : BufTy).Contents (Elt Ideal)) (a8 a9 : (⟨S768, .f32⟩ : BufTy).Contents (Elt Ideal))
  (a10 : (⟨S2x320000, .i32⟩ : BufTy).Contents (Elt Ideal))

/-- The input side `gi = agg · Wihᵀ + bih` of node `n`, 768 wide. -/
abbrev giV (n : Fin 20000) (j' : Fin 768) : EReal :=
  (∑ k : Fin 256, aggV a0 a1 a3 a4 a5 a10 n k * a6 (ix2 j' k)) + a8 (ix1 j')

/-- The hidden side `gh = xr · Whhᵀ + bhh` of node `n`, 768 wide. -/
abbrev ghV (n : Fin 20000) (j' : Fin 768) : EReal :=
  (∑ k : Fin 256, xrV a0 a1 a3 a4 n k * a7 (ix2 j' k)) + a9 (ix1 j')

/-- The transposed input weight reads `Wih` at the swapped coordinates. -/
theorem v22_apply (k : Fin 256) (j' : Fin 768) : Read.val_main_v22 (F := Ideal) a6 (ix2 k j') = a6 (ix2 j' k) := by
  rw [Read.val_main_v22_apply]
  exact congrArg a6 (funext fun a => Fin.ext (by match a with | ⟨0, _⟩ => rfl | ⟨1, _⟩ => rfl))

/-- The input-side product at `(n, j')`. -/
theorem v23_apply (n : Fin 20000) (j' : Fin 768) :
    Read.val_main_v23 (F := Ideal) a0 a1 a3 a4 a5 a6 a10 (ix2 n j')
      = ∑ k : Fin 256, aggV a0 a1 a3 a4 a5 a10 n k * a6 (ix2 j' k) := by
  rw [Read.val_main_v23_apply]
  refine Finset.sum_congr rfl fun k _ => ?_
  have el : Read.lidx_main_v23 (ix2 n j') k = ix2 n k := funext fun a => Fin.ext (by match a with | ⟨0, _⟩ => rfl | ⟨1, _⟩ => rfl)
  have er : Read.ridx_main_v23 (ix2 n j') k = ix2 k j' := funext fun a => Fin.ext (by match a with | ⟨0, _⟩ => rfl | ⟨1, _⟩ => rfl)
  rw [el, er, v21_apply, v22_apply]

/-- The input bias spread down the rows reads the bias at the column. -/
theorem v25_apply (n : Fin 20000) (j' : Fin 768) : Read.val_main_v25 (F := Ideal) a8 (ix2 n j') = a8 (ix1 j') := by
  rw [Read.val_main_v25_apply, Read.val_main_v24_apply]
  exact congrArg a8 (funext fun a => Fin.ext (by match a with | ⟨0, _⟩ => rfl))

/-- The input side at `(n, j')`. -/
theorem v26_apply (n : Fin 20000) (j' : Fin 768) :
    Read.val_main_v26 (F := Ideal) a0 a1 a3 a4 a5 a6 a8 a10 (ix2 n j') = giV a0 a1 a3 a4 a5 a6 a8 a10 n j' := by
  rw [Read.val_main_v26_apply, v23_apply, v25_apply]
  rfl

/-- The transposed hidden weight reads `Whh` at the swapped coordinates. -/
theorem v27_apply (k : Fin 256) (j' : Fin 768) : Read.val_main_v27 (F := Ideal) a7 (ix2 k j') = a7 (ix2 j' k) := by
  rw [Read.val_main_v27_apply]
  exact congrArg a7 (funext fun a => Fin.ext (by match a with | ⟨0, _⟩ => rfl | ⟨1, _⟩ => rfl))

/-- The hidden-side product at `(n, j')`. -/
theorem v28_apply (n : Fin 20000) (j' : Fin 768) :
    Read.val_main_v28 (F := Ideal) a0 a1 a3 a4 a7 (ix2 n j') = ∑ k : Fin 256, xrV a0 a1 a3 a4 n k * a7 (ix2 j' k) := by
  rw [Read.val_main_v28_apply]
  refine Finset.sum_congr rfl fun k _ => ?_
  have el : Read.lidx_main_v28 (ix2 n j') k = ix2 n k := funext fun a => Fin.ext (by match a with | ⟨0, _⟩ => rfl | ⟨1, _⟩ => rfl)
  have er : Read.ridx_main_v28 (ix2 n j') k = ix2 k j' := funext fun a => Fin.ext (by match a with | ⟨0, _⟩ => rfl | ⟨1, _⟩ => rfl)
  rw [el, er, v6_apply, v27_apply]

/-- The hidden bias spread down the rows reads the bias at the column. -/
theorem v30_apply (n : Fin 20000) (j' : Fin 768) : Read.val_main_v30 (F := Ideal) a9 (ix2 n j') = a9 (ix1 j') := by
  rw [Read.val_main_v30_apply, Read.val_main_v29_apply]
  exact congrArg a9 (funext fun a => Fin.ext (by match a with | ⟨0, _⟩ => rfl))

/-- The hidden side at `(n, j')`. -/
theorem v31_apply (n : Fin 20000) (j' : Fin 768) :
    Read.val_main_v31 (F := Ideal) a0 a1 a3 a4 a7 a9 (ix2 n j') = ghV a0 a1 a3 a4 a7 a9 n j' := by
  rw [Read.val_main_v31_apply, v28_apply, v30_apply]
  rfl

/-! ### The three 256-wide thirds of each side -/

theorem v32_apply (n : Fin 20000) (j : Fin 256) :
    Read.val_main_v32 (F := Ideal) a0 a1 a3 a4 a5 a6 a8 a10 (ix2 n j) = giV a0 a1 a3 a4 a5 a6 a8 a10 n (g0 j) := by
  have e : Read.idx_main_v32 (ix2 n j) = ix2 n (g0 j) := funext fun a => Fin.ext (by match a with | ⟨0, _⟩ => rfl | ⟨1, _⟩ => rfl)
  rw [Read.val_main_v32_apply, e, v26_apply]

theorem v33_apply (n : Fin 20000) (j : Fin 256) :
    Read.val_main_v33 (F := Ideal) a0 a1 a3 a4 a5 a6 a8 a10 (ix2 n j) = giV a0 a1 a3 a4 a5 a6 a8 a10 n (g1 j) := by
  have e : Read.idx_main_v33 (ix2 n j) = ix2 n (g1 j) := funext fun a => Fin.ext (by match a with | ⟨0, _⟩ => rfl | ⟨1, _⟩ => rfl)
  rw [Read.val_main_v33_apply, e, v26_apply]

theorem v34_apply (n : Fin 20000) (j : Fin 256) :
    Read.val_main_v34 (F := Ideal) a0 a1 a3 a4 a5 a6 a8 a10 (ix2 n j) = giV a0 a1 a3 a4 a5 a6 a8 a10 n (g2 j) := by
  have e : Read.idx_main_v34 (ix2 n j) = ix2 n (g2 j) := funext fun a => Fin.ext (by match a with | ⟨0, _⟩ => rfl | ⟨1, _⟩ => rfl)
  rw [Read.val_main_v34_apply, e, v26_apply]

theorem v35_apply (n : Fin 20000) (j : Fin 256) :
    Read.val_main_v35 (F := Ideal) a0 a1 a3 a4 a7 a9 (ix2 n j) = ghV a0 a1 a3 a4 a7 a9 n (g0 j) := by
  have e : Read.idx_main_v35 (ix2 n j) = ix2 n (g0 j) := funext fun a => Fin.ext (by match a with | ⟨0, _⟩ => rfl | ⟨1, _⟩ => rfl)
  rw [Read.val_main_v35_apply, e, v31_apply]

theorem v36_apply (n : Fin 20000) (j : Fin 256) :
    Read.val_main_v36 (F := Ideal) a0 a1 a3 a4 a7 a9 (ix2 n j) = ghV a0 a1 a3 a4 a7 a9 n (g1 j) := by
  have e : Read.idx_main_v36 (ix2 n j) = ix2 n (g1 j) := funext fun a => Fin.ext (by match a with | ⟨0, _⟩ => rfl | ⟨1, _⟩ => rfl)
  rw [Read.val_main_v36_apply, e, v31_apply]

theorem v37_apply (n : Fin 20000) (j : Fin 256) :
    Read.val_main_v37 (F := Ideal) a0 a1 a3 a4 a7 a9 (ix2 n j) = ghV a0 a1 a3 a4 a7 a9 n (g2 j) := by
  have e : Read.idx_main_v37 (ix2 n j) = ix2 n (g2 j) := funext fun a => Fin.ext (by match a with | ⟨0, _⟩ => rfl | ⟨1, _⟩ => rfl)
  rw [Read.val_main_v37_apply, e, v31_apply]

/-! ### The two gates -/

/-- The reset gate `r = σ(gi₀ + gh₀)`. -/
theorem v44_apply (n : Fin 20000) (j : Fin 256) :
    Read.val_main_v44 (F := Ideal) a0 a1 a3 a4 a5 a6 a7 a8 a9 a10 (ix2 n j)
      = Ideal.logistic (giV a0 a1 a3 a4 a5 a6 a8 a10 n (g0 j) + ghV a0 a1 a3 a4 a7 a9 n (g0 j)) := by
  rw [Read.val_main_v44_apply, Read.val_main_v43_apply, Read.val_main_cst_2_apply, Read.val_main_v42_apply,
    Read.val_main_v41_apply, Read.val_main_cst_1_apply, Read.val_main_v40_apply, Read.val_main_v39_apply,
    Read.val_main_v38_apply, v32_apply, v35_apply]
  simp only [Ideal.hostDivf_def, Ideal.addf_def, Ideal.hostUnary_exp_def, Ideal.hostNegf_def, Ideal.negf_def, Ideal.ofBits_def]
  exact div_one_eq_logistic _

/-- The update gate `z = σ(gi₁ + gh₁)`. -/
theorem v51_apply (n : Fin 20000) (j : Fin 256) :
    Read.val_main_v51 (F := Ideal) a0 a1 a3 a4 a5 a6 a7 a8 a9 a10 (ix2 n j)
      = Ideal.logistic (giV a0 a1 a3 a4 a5 a6 a8 a10 n (g1 j) + ghV a0 a1 a3 a4 a7 a9 n (g1 j)) := by
  rw [Read.val_main_v51_apply, Read.val_main_v50_apply, Read.val_main_cst_4_apply, Read.val_main_v49_apply,
    Read.val_main_v48_apply, Read.val_main_cst_3_apply, Read.val_main_v47_apply, Read.val_main_v46_apply,
    Read.val_main_v45_apply, v33_apply, v36_apply]
  simp only [Ideal.hostDivf_def, Ideal.addf_def, Ideal.hostUnary_exp_def, Ideal.hostNegf_def, Ideal.negf_def, Ideal.ofBits_def]
  exact div_one_eq_logistic _

end Gates

/-! ## The reference's value -/

/-- The reference program's result at `(n, j)` is the unfolded arrangement of the gated graph-convolution step: the
    messages `xr · Wc` summed over the edges that end in `n` meet `Wihᵀ` in the cell, whose hidden side is `xr`. -/
theorem ref_eq (a0 a1 : (⟨S20000x256, .f32⟩ : BufTy).Contents (Elt Ideal)) (a3 : (⟨S256x512, .f32⟩ : BufTy).Contents (Elt Ideal))
    (a4 : (⟨S256, .f32⟩ : BufTy).Contents (Elt Ideal)) (a5 : (⟨S256x256, .f32⟩ : BufTy).Contents (Elt Ideal))
    (a6 a7 : (⟨S768x256, .f32⟩ : BufTy).Contents (Elt Ideal)) (a8 a9 : (⟨S768, .f32⟩ : BufTy).Contents (Elt Ideal))
    (a10 : (⟨S2x320000, .i32⟩ : BufTy).Contents (Elt Ideal)) (n : Fin 20000) (j : Fin 256) :
    Read.val_main_v59 (F := Ideal) a0 a1 a3 a4 a5 a6 a7 a8 a9 a10 (ix2 n j)
      = outR (fun n k => a1 (ix2 n k)) (fun n k => a0 (ix2 n k)) (fun j k => a3 (ix2 j k)) (fun j => a4 (ix1 j))
          (fun k l => a5 (ix2 k l)) (fun j l => a6 (ix2 j l)) (fun j k => a7 (ix2 j k)) (fun j => a8 (ix1 j)) (fun j => a9 (ix1 j))
          (fun e => clampRow 20000 (by norm_num) (Read.val_main_v17 (F := Ideal) a10 (rowIdx e)))
          (fun e => (Read.val_main_v20 (F := Ideal) a10 (rowIdx e)).toInt) n j := by
  rw [Read.val_main_v59_apply, Read.val_main_v57_apply, Read.val_main_v58_apply, Read.val_main_v56_apply,
    Read.val_main_v55_apply, Read.val_main_cst_5_apply, Read.val_main_v54_apply, Read.val_main_v53_apply,
    Read.val_main_v52_apply, v51_apply, v44_apply, v34_apply, v37_apply, v6_apply]
  simp only [Ideal.addf_def, Ideal.mulf_def, Ideal.subf_def, Ideal.hostUnary_tanh_def, Ideal.ofBits_def]
  rfl

end Cert.ReferenceIdeal.RefValue

end
-- ==== Proof.LibRealEntries.lean ====
/-
  Entries that are real numbers, and the array operations that keep them so (at the ideal instance, where a float is
  an extended real). A sum, a product, a maximum and a finite sum of real numbers are real; hence entrywise sums,
  products and maxima of arrays with real entries, their broadcasts, a gather from such an array (each result entry
  is an entry of the operand), an accumulating scatter of such updates into such an operand (each entry gains
  finitely many real updates), and a contraction of two such arrays (finite sums of real products from zero) all
  have real entries. The reciprocal square root of an extended real that is at least one is real (it is 0 at +∞), so a
  reciprocal square root of anything clamped below at one is real, whatever was clamped.
-/
import Idealize.ShloMosaic.PureOps.Ideal.Laws

noncomputable section

namespace Cert.LibRealEntries

open Idealize.ShloMosaic Idealize.ShloMosaic.TcCoe

/-- An extended real that is a real number. -/
def IsReal (x : EReal) : Prop := ∃ y : ℝ, x = (y : EReal)

theorem IsReal.zero : IsReal 0 := ⟨0, rfl⟩
theorem IsReal.one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  obtain ⟨a, rfl⟩ := hx; obtain ⟨b, rfl⟩ := hy; exact ⟨Max.max a b, (EReal.coe_strictMono.monotone.map_max).symm⟩
theorem IsReal.sum {ι : Type} (s : Finset ι) (f : ι → EReal) (h : ∀ i ∈ s, IsReal (f i)) : IsReal (∑ i ∈ s, f i) :=
  Finset.sum_induction f IsReal (fun _ _ => IsReal.add) IsReal.zero h

/-- The reciprocal square root of an extended real that is at least one is a real number. -/
theorem isReal_rsqrt_of_one_le {x : EReal} (h : 1 ≤ x) : IsReal (Ideal.rsqrt x) := by
  induction x using EReal.rec with
  | bot =>
    have hlt : (⊥ : EReal) < 1 := by exact_mod_cast EReal.bot_lt_coe 1
    exact absurd h (not_le.mpr hlt)
  | top => exact ⟨0, rfl⟩
  | coe r =>
    have hr : (1 : ℝ) ≤ r := by exact_mod_cast h
    show IsReal (if r < 0 then ⊥ else if r = 0 then ⊤ else (((Real.sqrt r)⁻¹ : ℝ) : EReal))
    rw [if_neg (by linarith), if_neg (by linarith)]
    exact ⟨_, rfl⟩

theorem isReal_zero_word : IsReal (Ideal.ofBits .f32 0x00000000#32) := by
  rw [Ideal.ofBits_zero_f32]; exact IsReal.zero

/-! ## The operations keep entries real (any shapes) -/

section Generic
variable {s t si u sl sr so : Shape} {w : Nat}

theorem real_maximumf (a b : FVec Ideal s .f32) (ha : ∀ i, IsReal (a i)) (hb : ∀ i, IsReal (b i)) (i : s.Idx) :
    IsReal (maximumf a b i) := (ha i).max (hb i)
theorem real_addf (a b : FVec Ideal s .f32) (ha : ∀ i, IsReal (a i)) (hb : ∀ i, IsReal (b i)) (i : s.Idx) :
    IsReal (addf a b i) := (ha i).add (hb i)
theorem real_mulf (a b : FVec Ideal s .f32) (ha : ∀ i, IsReal (a i)) (hb : ∀ i, IsReal (b i)) (i : s.Idx) :
    IsReal (mulf a b i) := (ha i).mul (hb i)
theorem real_bcast (dims : Fin s.rank → Fin t.rank) (h : s.BroadcastsInDim t dims) (x : FVec Ideal s .f32)
    (hx : ∀ i, IsReal (x i)) (j : t.Idx) : IsReal (broadcastInDim t dims h x j) := hx _
theorem real_gather (d : GatherDims s si t) (x : FVec Ideal s .f32) (idx : IVec si w) (hx : ∀ i, IsReal (x i)) (j : t.Idx) :
    IsReal (Host.gather d x idx j) := hx _
theorem real_scatterAdd (d : ScatterDims s si u) (x : FVec Ideal s .f32) (idx : IVec si w) (upd : FVec Ideal u .f32)
    (hx : ∀ i, IsReal (x i)) (hu : ∀ j, IsReal (upd j)) (i : s.Idx) : IsReal (Host.scatterAdd d x idx upd i) :=
  (hx i).add (IsReal.sum _ _ fun j _ => hu j)
theorem real_dot (d : DotDims sl sr so) (prec : Option ContractPrecision) (l : FVec Ideal sl .f32) (r : FVec Ideal sr .f32)
    (hl : ∀ i, IsReal (l i)) (hr : ∀ i, IsReal (r i)) (j : so.Idx) : IsReal (Host.dotGeneral d prec l r j) :=
  IsReal.zero.add (IsReal.sum _ _ fun k _ => (hl _).mul (hr _))
/-- A reciprocal square root of a value clamped below at one. -/
theorem real_rsqrt_clamp (one y : FVec Ideal s .f32) (h1 : ∀ i, one i = 1) (i : s.Idx) :
    IsReal (Host.rsqrt (maximumf one y) i) := by
  show IsReal (Ideal.rsqrt (Max.max (one i) (y i)))
  rw [h1 i]; exact isReal_rsqrt_of_one_le (le_max_left _ _)

end Generic

end Cert.LibRealEntries

end
-- ==== Proof.SpecLaw.lean ====
/-
  The law that joins the two arrangements of the gated graph-convolution step.

  (a) The dense layer over the 512 joined columns is the dense layer written as two products over 256 columns: a sum
      over the joined columns is the sum over the left half plus the sum over the right half. This holds for all
      extended reals.
  (b) When the inputs and the dense weights are real numbers, every hidden feature is a real number.
  (c) For real numbers, summing rows over the edges and then meeting the folded weight Wc·Wihᵀ is the same as meeting Wc
      first, summing over the edges, and meeting Wihᵀ afterwards: both are the triple sum of a·Wc·Wih over edges and the
      two column indices. Over the extended reals multiplication does not distribute over sums at the infinities, so
      the rearrangement is proved in ℝ and carried over by the coercion, which commutes with finite sums and products.
  (d) The two outputs then feed the same cell the same arguments.
-/
import proofs.«180257_j40346922778954_2_alg».proof.Proof.Spec
import proofs.«180257_j40346922778954_2_alg».proof.Proof.LibRealEntries
import proofs.«180257_j40346922778954_2_alg».proof.Proof.LibJoinedRows
noncomputable section
open scoped BigOperators
namespace Cert.GruSpec
open Cert.LibRealEntries

/-! ## The coercion of real numbers commutes with finite sums and with a guarded term -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (c : Prop) [Decidable c] (a : ℝ) :
    ((if c then a else 0 : ℝ) : EReal) = if c then (a : EReal) else 0 := by
  split_ifs <;> rfl

/-! ## The rearrangement, over abstract finite index types -/

/-- In ℝ: both sides are the sum of `a e k * W k l * V l` over the selected `e` and all `k`, `l`. -/
theorem sum_rearrange {ε κ μ : Type} [Fintype ε] [Fintype κ] [Fintype μ] (c : ε → Prop) [DecidablePred c]
    (a : ε → κ → ℝ) (W : κ → μ → ℝ) (V : μ → ℝ) :
    ∑ k, (∑ e, if c e then a e k else 0) * (∑ l, W k l * V l)
      = ∑ l, (∑ e, if c e then (∑ k, a e k * W k l) else 0) * V l := by
  simp only [← Finset.sum_filter, Finset.sum_mul, Finset.mul_sum, ← mul_assoc]
  refine Eq.trans Finset.sum_comm ?_
  refine Finset.sum_congr rfl fun l _ => ?_
  exact Finset.sum_comm

/-- The same over the extended reals, for arrays whose entries are coercions of real numbers. -/
theorem sum_rearrange_coe {ε κ μ : Type} [Fintype ε] [Fintype κ] [Fintype μ] (c : ε → Prop) [DecidablePred c]
    (a : ε → κ → ℝ) (W : κ → μ → ℝ) (V : μ → ℝ) :
    ∑ k, (∑ e, if c e then (a e k : EReal) else 0) * (∑ l, (W k l : EReal) * (V l : EReal))
      = ∑ l, (∑ e, if c e then (∑ k, (a e k : EReal) * (W k l : EReal)) else 0) * (V l : EReal) := by
  have key := congrArg (fun r : ℝ => (r : EReal)) (sum_rearrange c a W V)
  simp only [coe_sum, EReal.coe_mul, coe_ite] at key
  exact key

/-- The same for arrays of extended reals whose entries are real numbers. -/
theorem sum_rearrange_real {ε κ μ : Type} [Fintype ε] [Fintype κ] [Fintype μ] (c : ε → Prop) [DecidablePred c]
    (a : ε → κ → EReal) (W : κ → μ → EReal) (V : μ → EReal)
    (ha : ∀ e k, IsReal (a e k)) (hW : ∀ k l, IsReal (W k l)) (hV : ∀ l, IsReal (V l)) :
    ∑ k, (∑ e, if c e then a e k else 0) * (∑ l, W k l * V l)
      = ∑ l, (∑ e, if c e then (∑ k, a e k * W k l) else 0) * V l := by
  choose a' ha' using ha
  choose W' hW' using hW
  choose V' hV' using hV
  obtain rfl : a = fun e k => (a' e k : EReal) := funext fun e => funext fun k => ha' e k
  obtain rfl : W = fun k l => (W' k l : EReal) := funext fun k => funext fun l => hW' k l
  obtain rfl : V = fun l => (V' l : EReal) := funext fun l => hV' l
  exact sum_rearrange_coe c a' W' V'

/-! ## The two forms of the dense layer -/

section
variable (x h : Fin 20000 → Fin 256 → EReal) (Wfc : Fin 256 → Fin 512 → EReal) (bfc : Fin 256 → EReal)

/-- (a) The split form of the hidden features is the joined form, entry by entry, for all extended reals. -/
theorem xrK_eq_xrR (n : Fin 20000) (j : Fin 256) : xrK x h Wfc bfc n j = xrR x h Wfc bfc n j := by
  unfold xrK xrR fcE
  rw [Cert.LibJoinedRows.sum_rows_split (E1 := 256) (E2 := 256) (T := 512) rfl (fun k : Fin 512 => xh x h n k * Wfc j k)]
  have hl : ∀ k : Fin 256, xh x h n ⟨k.val, by omega⟩ = x n k := fun k => by
    unfold xh; rw [dif_pos k.isLt]
  have hr : ∀ k : Fin 256, xh x h n ⟨256 + k.val, by omega⟩ = h n k := fun k => by
    unfold xh
    rw [dif_neg (by show ¬ (256 + k.val < 256); omega)]
    exact congrArg (h n) (Fin.ext (by show 256 + k.val - 256 = k.val; omega))
  simp only [hl, hr]
  rfl

/-- (b) Hidden features of real inputs and real dense weights are real numbers. -/
theorem real_xrR (hx : ∀ n k, IsReal (x n k)) (hh : ∀ n k, IsReal (h n k)) (hW : ∀ j k, IsReal (Wfc j k))
    (hb : ∀ j, IsReal (bfc j)) (n : Fin 20000) (j : Fin 256) : IsReal (xrR x h Wfc bfc n j) := by
  unfold xrR
  refine IsReal.max (IsReal.add (IsReal.sum _ _ fun k _ => IsReal.mul ?_ (hW j k)) (hb j)) IsReal.zero
  unfold xh
  split_ifs
  · exact hx _ _
  · exact hh _ _

end

/-! ## The law -/

theorem law (x h : Fin 20000 → Fin 256 → EReal) (Wfc : Fin 256 → Fin 512 → EReal) (bfc : Fin 256 → EReal)
    (Wc : Fin 256 → Fin 256 → EReal) (Wih Whh : Fin 768 → Fin 256 → EReal) (bih bhh : Fin 768 → EReal)
    (row : Fin 320000 → Fin 20000) (dst : Fin 320000 → Int)
    (hx : ∀ n k, IsReal (x n k)) (hh : ∀ n k, IsReal (h n k)) (hW : ∀ j k, IsReal (Wfc j k)) (hb : ∀ j, IsReal (bfc j))
    (hc : ∀ k l, IsReal (Wc k l)) (hi : ∀ j l, IsReal (Wih j l)) (n : Fin 20000) (j : Fin 256) :
    outK x h Wfc bfc Wc Wih Whh bih bhh row dst n j = outR x h Wfc bfc Wc Wih Whh bih bhh row dst n j := by
  have hxr : xrK x h Wfc bfc = xrR x h Wfc bfc := funext fun n => funext fun j => xrK_eq_xrR x h Wfc bfc n j
  unfold outK outR
  rw [hxr]
  unfold gruE
  refine congrArg (fun gi => cell gi _ _ j) (funext fun j' => ?_)
  refine congrArg (fun s => s + bih j') ?_
  exact sum_rearrange_real (fun e => dst e = (n.val : Int)) (fun e k => xrR x h Wfc bfc (row e) k) Wc
    (fun l => Wih j' l) (fun e k => real_xrR x h Wfc bfc hx hh hW hb (row e) k) hc (fun l => hi j' l)

end Cert.GruSpec

end
-- ==== Proof.LibAllFinite.lean ====
/-
  Reading a precondition's words. A precondition printed from `jnp.all(jnp.abs(x) < inf) & … & jnp.all(s > 0)` is a
  conjunction of `and`-reductions of comparison words, read at its one index. A comparison word that is `1` is the
  comparison of the two extended reals; `|x| < +∞` makes `x` a real number; hence an all-reduction of `|a| < +∞`
  that is `1` makes every entry of `a` real, and a word `a > b` at an index is `b j < a j`.
-/
import proofs.«180257_j40346922778954_2_alg».proof.Proof.LibRealEntries
import Idealize.ShloMosaic.Lib.ReduceAll
import Idealize.ShloMosaic.Lib.ValueIdx
import Idealize.ShloMosaic.PureOps.Ideal.Laws

noncomputable section

namespace Cert.LibAllFinite

open Idealize.ShloMosaic Idealize.ShloMosaic.ValueIdx Cert.LibRealEntries

instance : Subsingleton (⟨0, ![]⟩ : Shape).Idx := ⟨fun a b => funext fun d => d.elim0⟩

/-- The word `0x7F800000` is `+∞`. -/
theorem ofBits_inf : Ideal.ofBits .f32 0x7F800000#32 = (⊤ : EReal) := by
  simp [Ideal.ofBits, Ideal.ieee]

/-- A true comparison word is the comparison. -/
theorem lt_of_cmp_olt {x y : EReal} (h : Ideal.cmp .olt x y = 1#1) : x < y := by
  by_contra hn
  have : decide (x < y) = false := decide_eq_false hn
  simp [Ideal.cmp, this] at h

theorem lt_of_cmp_ogt {x y : EReal} (h : Ideal.cmp .ogt x y = 1#1) : y < x := by
  by_contra hn
  have : decide (y < x) = false := decide_eq_false hn
  simp [Ideal.cmp, this] at h

/-- `|x| < +∞` makes `x` a real number. -/
theorem isReal_of_abs_lt_top (x : EReal) (h : max x (-x) < (⊤ : EReal)) : IsReal x := by
  induction x using EReal.rec with
  | bot => simp at h
  | coe r => exact ⟨r, rfl⟩
  | top => simp at h

/-- `jnp.all(|a| < +∞)` that is true makes every entry of `a` a real number. -/
theorem real_of_all {s : Shape} {axes : List (Fin s.rank)} (a : FVec Ideal s .f32)
    (hb : (⟨0, ![]⟩ : Shape).BroadcastsInDim s (![] : Fin 0 → Fin s.rank))
    (init : IVec ⟨0, ![]⟩ 1) (hred : s.ReducesTo axes ⟨0, ![]⟩) (hu : 0 < (⟨0, ![]⟩ : Shape).numel)
    (h : Host.reduce IntOp.andi
      (cmpf .olt (Host.absf a) (broadcastInDim s ![] hb (constant (F := Ideal) ⟨0, ![]⟩ .f32 0x7F800000#32)))
      init hred hu ix0 = 1#1) (i : s.Idx) : IsReal (a i) := by
  have hi := Host.reduce_andi_all _ init hred hu ix0 h i
  have h1 : Ideal.cmp .olt (max (a i) (-(a i))) (Ideal.ofBits .f32 0x7F800000#32) = 1#1 := hi
  rw [ofBits_inf] at h1
  exact isReal_of_abs_lt_top _ (lt_of_cmp_olt h1)

/-- A true comparison word between two arrays at an index is the inequality of their entries. -/
theorem lt_of_cmpf_ogt {s : Shape} (a b : FVec Ideal s .f32) (j : s.Idx) (h : cmpf .ogt a b j = 1#1) : b j < a j :=
  lt_of_cmp_ogt h

end Cert.LibAllFinite

end
-- ==== Proof.Finite.lean ====
/-
  From the stated precondition to "every entry is a real number".

  The precondition says that one word, read at its single index, is 1. That word is a conjunction, nested to the left,
  of ten words, one per float argument; each of them is the all-reduction of the comparison |a| < +∞ over an argument
  array a. A conjunction of two words is 1 exactly when both are, so each of the ten words is 1; and an all-reduction of
  |a| < +∞ that is 1 makes every entry of a a real number. The six arguments the law needs are the first, second,
  fourth, fifth, sixth and seventh.
-/
import proofs.«180257_j40346922778954_2_alg».proof.Proof.Gen.KernelIdeal
import proofs.«180257_j40346922778954_2_alg».proof.Proof.Gen.Pre_finite_inputs
import proofs.«180257_j40346922778954_2_alg».proof.Defs
import proofs.«180257_j40346922778954_2_alg».proof.Proof.LibAllFinite
import Idealize.ShloMosaic.Lib.ReduceAll
import Idealize.ShloMosaic.Lib.ValueIdx
noncomputable section
namespace Cert.KernelIdeal.Finite
open Idealize.ShloMosaic Idealize.ShloMosaic.TcCoe Idealize.SL.Sem Idealize.ShloMosaic.ValueIdx Cert.LibRealEntries Cert.LibAllFinite

/-- A conjunction of two one-index words that is 1 at the index has both words 1 there. -/
theorem and_word {a b : IVec (⟨0, ![]⟩ : Shape) 1} (h : andi a b ix0 = 1#1) : a ix0 = 1#1 ∧ b ix0 = 1#1 :=
  IntOp.andi_eq_one.1 h

theorem real_args (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  have h := congrFun (hpre c) ix0
  dsimp only [Cert.Pre_finite_inputs.fn, Cert.Pre_finite_inputs.fn_part1, Cert.Pre_finite_inputs.fn_part2] at h
  -- peel the conjunction from the right: the tenth, ninth and eighth words are not needed
  obtain ⟨h, _⟩ := and_word h
  obtain ⟨h, _⟩ := and_word h
  obtain ⟨h, _⟩ := and_word h
  obtain ⟨h, h6⟩ := and_word h
  obtain ⟨h, h5⟩ := and_word h
  obtain ⟨h, h4⟩ := and_word h
  obtain ⟨h, h3⟩ := and_word h
  obtain ⟨h, _⟩ := and_word h
  obtain ⟨h0, h1⟩ := and_word h
  exact ⟨real_of_all _ _ _ _ _ h0, real_of_all _ _ _ _ _ h1, real_of_all _ _ _ _ _ h3, real_of_all _ _ _ _ _ h4,
    real_of_all _ _ _ _ _ h5, real_of_all _ _ _ _ _ h6⟩

end Cert.KernelIdeal.Finite

end
-- ==== Proof.lean ====
/-
  One gated graph-convolution step: the tiled kernel program against its plain reference, over the extended reals.

  Both programs compute, for 20000 nodes with 256 features, hidden features xr = max([x | h]·Wfcᵀ + b, 0), a sum over
  the 320000 edges of rows taken at each edge's source into the row of its target, and a gated recurrent cell on the
  summed rows (input side) and xr (hidden side). The kernel program writes the dense layer as two products over the
  halves of Wfc, sums rows of xr itself over the edges, and folds the convolution weight into the cell's input weight
  (Wc·Wihᵀ); the reference multiplies xr by Wc before the edge sum and meets Wihᵀ in the cell. The two agree entry by
  entry when the float arguments are real numbers: splitting a sum over 512 columns needs nothing, and moving Wc across
  the edge sum is distributivity, which over the extended reals needs the summed entries real (`GruSpec.law`).

  The kernel program's result is read off its run region by region (`KValue.result_eq`), the reference's off its run
  one operation at a time (`RefValue.ref_eq`); the rows the gather reads and the rows the edge sum adds into are the
  same words of the edge array in both programs. The idealization rewrote no operation, so that claim is trivial.
-/
import proofs.«180257_j40346922778954_2_alg».proof.Defs
import proofs.«180257_j40346922778954_2_alg».proof.Proof.Gen.Kernel
import proofs.«180257_j40346922778954_2_alg».proof.Proof.Gen.Kernel.Skeleton
import proofs.«180257_j40346922778954_2_alg».proof.Proof.Gen.Kernel.Launch
import proofs.«180257_j40346922778954_2_alg».proof.Proof.Gen.Kernel.Points
import proofs.«180257_j40346922778954_2_alg».proof.Proof.Gen.Kernel.Frame
import proofs.«180257_j40346922778954_2_alg».proof.Proof.Gen.KernelIdeal
import proofs.«180257_j40346922778954_2_alg».proof.Proof.Gen.KernelIdeal.Skeleton
import proofs.«180257_j40346922778954_2_alg».proof.Proof.Gen.KernelIdeal.Launch
import proofs.«180257_j40346922778954_2_alg».proof.Proof.Gen.KernelIdeal.Points
import proofs.«180257_j40346922778954_2_alg».proof.Proof.Gen.KernelIdeal.Frame
import proofs.«180257_j40346922778954_2_alg».proof.Proof.Gen.ReferenceIdeal
import proofs.«180257_j40346922778954_2_alg».proof.Proof.Gen.Pre_finite_inputs
import proofs.«180257_j40346922778954_2_alg».proof.Proof.Gen.ReferenceIdeal.Run
import proofs.«180257_j40346922778954_2_alg».proof.Proof.Gen.ReferenceIdeal.Read
import proofs.«180257_j40346922778954_2_alg».proof.Proof.KernelValue
import proofs.«180257_j40346922778954_2_alg».proof.Proof.RefValue
import proofs.«180257_j40346922778954_2_alg».proof.Proof.SpecLaw
import proofs.«180257_j40346922778954_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The rows the gather reads are the same words of the edge array in both programs … -/
theorem src_same (a : IVec Cert.ReferenceIdeal.S2x320000 32) :
    Cert.ReferenceIdeal.Read.val_main_v17 (F := Ideal) a = Cert.KernelIdeal.HostValue.srcIdx a := rfl

/-- … and so are the rows the edge sum adds into. -/
theorem dst_same (a : IVec Cert.ReferenceIdeal.S2x320000 32) :
    Cert.ReferenceIdeal.Read.val_main_v20 (F := Ideal) a = Cert.KernelIdeal.HostValue.dstIdx a := rfl

/-- From memories that agree on the arguments both programs run, and their results are equal entry by entry: the
    kernel program's is the folded arrangement, the reference's the unfolded one, of real arguments. -/
theorem algebraic : Cert.algebraic_KernelIdeal_ReferenceIdeal := by
  intro m ρ m' ρ' hpre hagree
  refine ⟨fun c => Cert.KernelIdeal.Gen.W4 m ρ c (Proc.devRef .tc Cert.KernelIdeal.main_v26),
    Cert.KernelIdeal.KRun.run_named m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq]
  obtain ⟨h0, h1, h2, h3, h4, h5, h6, h7, h8, h9, h10, h11⟩ := hagree c
  rw [h0, h1, h3, h4, h5, h6, h7, h8, h9, h10]
  refine funext fun i => ?_
  obtain ⟨n, j, rfl⟩ : ∃ (n : Fin 20000) (j : Fin 256), i = ix2 n j := ⟨i 0, i 1, eq_ix2 i⟩
  obtain ⟨r0, r1, r3, r4, r5, r6⟩ := Cert.KernelIdeal.Finite.real_args m hpre c
  refine (Cert.ReferenceIdeal.RefValue.ref_eq _ _ _ _ _ _ _ _ _ _ n j).trans ?_
  refine Eq.trans ?_ (Cert.KernelIdeal.KValue.result_eq m ρ c n j).symm
  rw [src_same, dst_same]
  exact (Cert.GruSpec.law _ _ _ _ _ _ _ _ _ _ _ (fun n k => r1 _) (fun n k => r0 _) (fun j k => r3 _) (fun j => r4 _)
    (fun k l => r5 _) (fun j l => r6 _) n j).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
